-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x600000 : Shape := ⟨2, ![2, 600000]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x1 .f32) (main_arg11 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x1 .f32 := Host.absf main_arg10
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S128 .f32) (main_arg6 : FVec F S128x64 .f32) (main_arg7 : FVec F S64 .f32) (main_arg8 : FVec F S64x64 .f32) (main_arg9 : FVec F S64 .f32) (main_arg10 : FVec F S64x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x3 .f32) (main_arg1 : IVec S2x600000 32) (main_arg2 : FVec F S3x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x3 : Shape := ⟨2, ![100000, 3]⟩
abbrev S2x600000 : Shape := ⟨2, ![2, 600000]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S10000x3 : Shape := ⟨2, ![10000, 3]⟩
abbrev S10000x128 : Shape := ⟨2, ![10000, 128]⟩
abbrev S700000x128 : Shape := ⟨2, ![700000, 128]⟩
abbrev S1x128 : Shape := ⟨2, ![1, 128]⟩
abbrev S100000x64 : Shape := ⟨2, ![100000, 64]⟩
abbrev S10000x64 : Shape := ⟨2, ![10000, 64]⟩
abbrev S700000x64 : Shape := ⟨2, ![700000, 64]⟩
abbrev S1x64 : Shape := ⟨2, ![1, 64]⟩
abbrev S100000x1 : Shape := ⟨2, ![100000, 1]⟩
abbrev S10000x1 : Shape := ⟨2, ![10000, 1]⟩
abbrev S1x1 : Shape := ⟨2, ![1, 1]⟩

abbrev nBuf : Space → Nat
  | .hbm => 161
  | .vmem => 25
  | .smem => 0
  | _ => 0

abbrev hbmTy0_0 (i : Nat) : BufTy := match i % 128 with
  | 0 => ⟨S100000x3, .f32⟩
  | 1 => ⟨S2x600000, .i32⟩
  | 2 => ⟨S3x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S100000, .i32⟩
  | 13 => ⟨S1x600000, .i32⟩
  | 14 => ⟨S600000, .i32⟩
  | 15 => ⟨S700000, .i32⟩
  | 16 => ⟨S1x600000, .i32⟩
  | 17 => ⟨S600000, .i32⟩
  | 18 => ⟨S700000, .i32⟩
  | 19 => ⟨S_, .f32⟩
  | 20 => ⟨S700000, .f32⟩
  | 21 => ⟨S_, .f32⟩
  | 22 => ⟨S100000, .f32⟩
  | 23 => ⟨S700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S700000, .f32⟩
  | 54 => ⟨S700000x1, .f32⟩
  | 55 => ⟨S100000x128, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000x128, .f32⟩
  | 65 => ⟨S700000x128, .f32⟩
  | 66 => ⟨S700000x128, .f32⟩
  | 67 => ⟨S_, .f32⟩
  | 68 => ⟨S100000x128, .f32⟩
  | 69 => ⟨S700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S700000, .i32⟩
  | 80 => ⟨S700000, .i1⟩
  | 81 => ⟨S_, .i32⟩
  | 82 => ⟨S700000, .i32⟩
  | 83 => ⟨S700000, .i32⟩
  | 84 => ⟨S700000, .i32⟩
  | 85 => ⟨S700000x1, .i32⟩
  | 86 => ⟨S700000x128, .f32⟩
  | 87 => ⟨S700000x128, .f32⟩
  | 88 => ⟨S700000x128, .f32⟩
  | 89 => ⟨S_, .f32⟩
  | 90 => ⟨S100000x128, .f32⟩
  | 91 => ⟨S700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x64, .f32⟩
  | 100 => ⟨S_, .i32⟩
  | 101 => ⟨S700000, .i32⟩
  | 102 => ⟨S700000, .i1⟩
  | 103 => ⟨S_, .i32⟩
  | 104 => ⟨S700000, .i32⟩
  | 105 => ⟨S700000, .i32⟩
  | 106 => ⟨S700000, .i32⟩
  | 107 => ⟨S700000x1, .i32⟩
  | 108 => ⟨S700000x64, .f32⟩
  | 109 => ⟨S700000x64, .f32⟩
  | 110 => ⟨S700000x64, .f32⟩
  | 111 => ⟨S_, .f32⟩
  | 112 => ⟨S100000x64, .f32⟩
  | 113 => ⟨S700000x1, .i32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .i32⟩
  | 123 => ⟨S700000, .i32⟩
  | 124 => ⟨S700000, .i1⟩
  | 125 => ⟨S_, .i32⟩
  | 126 => ⟨S700000, .i32⟩
  | 127 => ⟨S700000, .i32⟩
  | _ => ⟨S100000x3, .f32⟩

abbrev hbmTy0_1 (i : Nat) : BufTy := match i % 128 with
  | 0 => ⟨S700000, .i32⟩
  | 1 => ⟨S700000x1, .i32⟩
  | 2 => ⟨S700000x64, .f32⟩
  | 3 => ⟨S700000x64, .f32⟩
  | 4 => ⟨S700000x64, .f32⟩
  | 5 => ⟨S_, .f32⟩
  | 6 => ⟨S100000x64, .f32⟩
  | 7 => ⟨S700000x1, .i32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x1, .f32⟩
  | 16 => ⟨S_, .i32⟩
  | 17 => ⟨S700000, .i32⟩
  | 18 => ⟨S700000, .i1⟩
  | 19 => ⟨S_, .i32⟩
  | 20 => ⟨S700000, .i32⟩
  | 21 => ⟨S700000, .i32⟩
  | 22 => ⟨S700000, .i32⟩
  | 23 => ⟨S700000x1, .i32⟩
  | 24 => ⟨S700000x1, .f32⟩
  | 25 => ⟨S700000x1, .f32⟩
  | 26 => ⟨S_, .f32⟩
  | 27 => ⟨S100000x1, .f32⟩
  | 28 => ⟨S700000x1, .i32⟩
  | 29 => ⟨S100000x1, .f32⟩
  | 30 => ⟨S1x1, .f32⟩
  | 31 => ⟨S100000x1, .f32⟩
  | 32 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S10000x3, .f32⟩
  | .local _ .vmem, ⟨1, _⟩ => ⟨S10000x3, .f32⟩
  | .local _ .vmem, ⟨2, _⟩ => ⟨S3x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S10000x1, .f32⟩
  | .local _ .vmem, ⟨24, _⟩ => ⟨S10000x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call3_cst : Ref sig .tc := ⟨.hbm, 118, rfl⟩
abbrev main_call3_v0 : Ref sig .tc := ⟨.hbm, 119, rfl⟩
abbrev main_v82 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call4_cst : Ref sig .tc := ⟨.hbm, 140, rfl⟩
abbrev main_call4_v0 : Ref sig .tc := ⟨.hbm, 141, rfl⟩
abbrev main_v99 : Ref sig .tc := ⟨.hbm, 142, rfl⟩
abbrev main_v100 : Ref sig .tc := ⟨.hbm, 143, rfl⟩
abbrev main_c_19 : Ref sig .tc := ⟨.hbm, 144, rfl⟩
abbrev main_v101 : Ref sig .tc := ⟨.hbm, 145, rfl⟩
abbrev main_v102 : Ref sig .tc := ⟨.hbm, 146, rfl⟩
abbrev main_c_20 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  inb_S10000x3_S10000x3_0_0 : ∀ a, (![0, 0] : Fin 2 → Nat) a + S10000x3.size a ≤ S10000x3.size a
  h_S10000x3 : 0 < S10000x3.numel
  bitsLt_bf16_f32 : FTy.bits .bf16 < FTy.bits .f32
  inb_S3x128_S3x128_0_0 : ∀ a, (![0, 0] : Fin 2 → Nat) a + S3x128.size a ≤ S3x128.size a
  h_S3x128 : 0 < S3x128.numel
  inb_S10000x128_S10000x128_0_0 : ∀ a, (![0, 0] : Fin 2 → Nat) a + S10000x128.size a ≤ S10000x128.size a
  h_S10000x128 : 0 < S10000x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x3_S3x128_S10000x128_1_0_0_1_n_n_wf : DotDims.WF S10000x3 S3x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  gather_S100000x1_S700000x1_S700000x1_1_0_n_n_0_1_11_wf : GatherDims.WF S100000x1 S700000x1 S700000x1 [1] [0] [] [0] [] 1 ![1, 1]
  scatter_S100000x1_S700000x1_S700000x1_1_0_0_1_wf : ScatterDims.WF S100000x1 S700000x1 S700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x3.size a ≤ S100000x3.size a
  hwx0_0 : ∀ i : grid0.Coords, EltTy.bits .f32 = 32 ∨ (Rect.block (s := S100000x3) S10000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S100000x1.size a
  hwx4_2 : ∀ i : grid4.Coords, EltTy.bits .f32 = 32 ∨ (Rect.block (s := S100000x1) S10000x1.size (cc4_transform_2 i) (hinb4_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x3_S3x128_S10000x128_1_0_0_1_n_n : DotDims S10000x3 S3x128 S10000x128 where
  lhsContracting := [1]
  rhsContracting := [0]
  lhsNonContracting := [0]
  rhsNonContracting := [1]
  lhsBatch := []
  rhsBatch := []
  wf := dot_S10000x3_S3x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S700000x1_S700000x1_1_0_n_n_0_1_11 : GatherDims S100000x1 S700000x1 S700000x1 where
  offsetDims := [1]
  collapsedSliceDims := [0]
  operandBatchingDims := []
  startIndicesBatchingDims := []
  startIndexMap := [0]
  indexVectorDim := 1
  sliceSizes := ![1, 1]
  wf := gather_S100000x1_S700000x1_S700000x1_1_0_n_n_0_1_11_wf
def scatter_S100000x1_S700000x1_S700000x1_1_0_0_1 : ScatterDims S100000x1 S700000x1 S700000x1 where
  updateWindowDims := [1]
  insertedWindowDims := [0]
  scatterDimsToOperandDims := [0]
  indexVectorDim := 1
  wf := scatter_S100000x1_S700000x1_S700000x1_1_0_0_1_wf

abbrev win0_0 : Pipeline.Window sig grid0 :=
  Pipeline.Window.ofSpec (Memref.whole main_arg0) S10000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v65) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v82) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v83) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v99) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v100) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x3 : Shape := ⟨2, ![100000, 3]⟩
abbrev S2x600000 : Shape := ⟨2, ![2, 600000]⟩
abbrev S3x128 : Shape := ⟨2, ![3, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S100000x128 : Shape := ⟨2, ![100000, 128]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 161
  | .vmem => 0
  | .smem => 0
  | _ => 0

abbrev hbmTy0_0 (i : Nat) : BufTy := match i % 128 with
  | 0 => ⟨S100000x3, .f32⟩
  | 1 => ⟨S2x600000, .i32⟩
  | 2 => ⟨S3x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S100000, .i32⟩
  | 13 => ⟨S1x600000, .i32⟩
  | 14 => ⟨S600000, .i32⟩
  | 15 => ⟨S700000, .i32⟩
  | 16 => ⟨S1x600000, .i32⟩
  | 17 => ⟨S600000, .i32⟩
  | 18 => ⟨S700000, .i32⟩
  | 19 => ⟨S_, .f32⟩
  | 20 => ⟨S700000, .f32⟩
  | 21 => ⟨S_, .f32⟩
  | 22 => ⟨S100000, .f32⟩
  | 23 => ⟨S700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S700000, .f32⟩
  | 54 => ⟨S700000x1, .f32⟩
  | 55 => ⟨S100000x128, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S700000x128, .f32⟩
  | 65 => ⟨S700000x128, .f32⟩
  | 66 => ⟨S700000x128, .f32⟩
  | 67 => ⟨S_, .f32⟩
  | 68 => ⟨S100000x128, .f32⟩
  | 69 => ⟨S700000x1, .i32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S700000, .i32⟩
  | 80 => ⟨S700000, .i1⟩
  | 81 => ⟨S_, .i32⟩
  | 82 => ⟨S700000, .i32⟩
  | 83 => ⟨S700000, .i32⟩
  | 84 => ⟨S700000, .i32⟩
  | 85 => ⟨S700000x1, .i32⟩
  | 86 => ⟨S700000x128, .f32⟩
  | 87 => ⟨S700000x128, .f32⟩
  | 88 => ⟨S700000x128, .f32⟩
  | 89 => ⟨S_, .f32⟩
  | 90 => ⟨S100000x128, .f32⟩
  | 91 => ⟨S700000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x64, .f32⟩
  | 100 => ⟨S_, .i32⟩
  | 101 => ⟨S700000, .i32⟩
  | 102 => ⟨S700000, .i1⟩
  | 103 => ⟨S_, .i32⟩
  | 104 => ⟨S700000, .i32⟩
  | 105 => ⟨S700000, .i32⟩
  | 106 => ⟨S700000, .i32⟩
  | 107 => ⟨S700000x1, .i32⟩
  | 108 => ⟨S700000x64, .f32⟩
  | 109 => ⟨S700000x64, .f32⟩
  | 110 => ⟨S700000x64, .f32⟩
  | 111 => ⟨S_, .f32⟩
  | 112 => ⟨S100000x64, .f32⟩
  | 113 => ⟨S700000x1, .i32⟩
  | 114 => ⟨S100000x64, .f32⟩
  | 115 => ⟨S1x64, .f32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S100000x64, .f32⟩
  | 122 => ⟨S_, .i32⟩
  | 123 => ⟨S700000, .i32⟩
  | 124 => ⟨S700000, .i1⟩
  | 125 => ⟨S_, .i32⟩
  | 126 => ⟨S700000, .i32⟩
  | 127 => ⟨S700000, .i32⟩
  | _ => ⟨S100000x3, .f32⟩

abbrev hbmTy0_1 (i : Nat) : BufTy := match i % 128 with
  | 0 => ⟨S700000, .i32⟩
  | 1 => ⟨S700000x1, .i32⟩
  | 2 => ⟨S700000x64, .f32⟩
  | 3 => ⟨S700000x64, .f32⟩
  | 4 => ⟨S700000x64, .f32⟩
  | 5 => ⟨S_, .f32⟩
  | 6 => ⟨S100000x64, .f32⟩
  | 7 => ⟨S700000x1, .i32⟩
  | 8 => ⟨S100000x64, .f32⟩
  | 9 => ⟨S1x64, .f32⟩
  | 10 => ⟨S100000x64, .f32⟩
  | 11 => ⟨S100000x64, .f32⟩
  | 12 => ⟨S_, .f32⟩
  | 13 => ⟨S100000x64, .f32⟩
  | 14 => ⟨S100000x64, .f32⟩
  | 15 => ⟨S100000x1, .f32⟩
  | 16 => ⟨S_, .i32⟩
  | 17 => ⟨S700000, .i32⟩
  | 18 => ⟨S700000, .i1⟩
  | 19 => ⟨S_, .i32⟩
  | 20 => ⟨S700000, .i32⟩
  | 21 => ⟨S700000, .i32⟩
  | 22 => ⟨S700000, .i32⟩
  | 23 => ⟨S700000x1, .i32⟩
  | 24 => ⟨S700000x1, .f32⟩
  | 25 => ⟨S700000x1, .f32⟩
  | 26 => ⟨S_, .f32⟩
  | 27 => ⟨S100000x1, .f32⟩
  | 28 => ⟨S700000x1, .i32⟩
  | 29 => ⟨S100000x1, .f32⟩
  | 30 => ⟨S1x1, .f32⟩
  | 31 => ⟨S100000x1, .f32⟩
  | 32 => ⟨S100000x1, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_4 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_c_5 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_c_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call1_cst : Ref sig .tc := ⟨.hbm, 74, rfl⟩
abbrev main_call1_v0 : Ref sig .tc := ⟨.hbm, 75, rfl⟩
abbrev main_v48 : Ref sig .tc := ⟨.hbm, 76, rfl⟩
abbrev main_v49 : Ref sig .tc := ⟨.hbm, 77, rfl⟩
abbrev main_c_10 : Ref sig .tc := ⟨.hbm, 78, rfl⟩
abbrev main_v50 : Ref sig .tc := ⟨.hbm, 79, rfl⟩
abbrev main_v51 : Ref sig .tc := ⟨.hbm, 80, rfl⟩
abbrev main_c_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call2_cst : Ref sig .tc := ⟨.hbm, 96, rfl⟩
abbrev main_call2_v0 : Ref sig .tc := ⟨.hbm, 97, rfl⟩
abbrev main_v65 : Ref sig .tc := ⟨.hbm, 98, rfl⟩
abbrev main_v66 : Ref sig .tc := ⟨.hbm, 99, rfl⟩
abbrev main_c_13 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_15 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call3_cst : Ref sig .tc := ⟨.hbm, 118, rfl⟩
abbrev main_call3_v0 : Ref sig .tc := ⟨.hbm, 119, rfl⟩
abbrev main_v82 : Ref sig .tc := ⟨.hbm, 120, rfl⟩
abbrev main_v83 : Ref sig .tc := ⟨.hbm, 121, rfl⟩
abbrev main_c_16 : Ref sig .tc := ⟨.hbm, 122, rfl⟩
abbrev main_v84 : Ref sig .tc := ⟨.hbm, 123, rfl⟩
abbrev main_v85 : Ref sig .tc := ⟨.hbm, 124, rfl⟩
abbrev main_c_17 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_18 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_call4_cst : Ref sig .tc := ⟨.hbm, 140, rfl⟩
abbrev main_call4_v0 : Ref sig .tc := ⟨.hbm, 141, rfl⟩
abbrev main_v99 : Ref sig .tc := ⟨.hbm, 142, rfl⟩
abbrev main_v100 : Ref sig .tc := ⟨.hbm, 143, rfl⟩
abbrev main_c_19 : Ref sig .tc := ⟨.hbm, 144, rfl⟩
abbrev main_v101 : Ref sig .tc := ⟨.hbm, 145, rfl⟩
abbrev main_v102 : Ref sig .tc := ⟨.hbm, 146, rfl⟩
abbrev main_c_20 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_cst_21 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x3_S3x128_S100000x128_1_0_0_1_n_n_wf : DotDims.WF S100000x3 S3x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []
  gather_S100000x1_S700000x1_S700000x1_1_0_n_n_0_1_11_wf : GatherDims.WF S100000x1 S700000x1 S700000x1 [1] [0] [] [0] [] 1 ![1, 1]
  scatter_S100000x1_S700000x1_S700000x1_1_0_0_1_wf : ScatterDims.WF S100000x1 S700000x1 S700000x1 [1] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x3_S3x128_S100000x128_1_0_0_1_n_n : DotDims S100000x3 S3x128 S100000x128 where
  lhsContracting := [1]
  rhsContracting := [0]
  lhsNonContracting := [0]
  rhsNonContracting := [1]
  lhsBatch := []
  rhsBatch := []
  wf := dot_S100000x3_S3x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S700000x1_S700000x1_1_0_n_n_0_1_11 : GatherDims S100000x1 S700000x1 S700000x1 where
  offsetDims := [1]
  collapsedSliceDims := [0]
  operandBatchingDims := []
  startIndicesBatchingDims := []
  startIndexMap := [0]
  indexVectorDim := 1
  sliceSizes := ![1, 1]
  wf := gather_S100000x1_S700000x1_S700000x1_1_0_n_n_0_1_11_wf
def scatter_S100000x1_S700000x1_S700000x1_1_0_0_1 : ScatterDims S100000x1 S700000x1 S700000x1 where
  updateWindowDims := [1]
  insertedWindowDims := [0]
  scatterDimsToOperandDims := [0]
  indexVectorDim := 1
  wf := scatter_S100000x1_S700000x1_S700000x1_1_0_0_1_wf

class Facts : Prop extends Facts₀ where

variable [Facts]
-- ==== Proof.KRun.lean ====
/-
  The idealized kernel program's run, with its result named.

  Every weakly fair execution of @main from a memory with zero counters terminates without a fault; the result buffer then
  holds what the last boundary of the run's fold holds there (`Gen.W17`: the launch contents pushed through every stretch
  of host operations and every pallas_call's write-backs in program order), and the twelve argument arrays hold what they
  held at launch. The run is the launch of @main's seventeen segments over the thread state "every unscoped buffer at the
  boundary's contents"; the final state is read against the last thread state buffer by buffer, which gives the result
  buffer as well as the arguments.
-/
import proofs.«158434_j22625887715477_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes unfolding
-- plain definitions in a metavariable's type
set_option backward.isDefEq.respectTransparency.types false in
/-- The run: termination, no fault, the result buffer at the fold's last boundary, the arguments as launched. -/
theorem run_named : θ_run defs (onTc (τ := τ) (main (F := F))) ⟨m, fun _ => 0, ρ⟩ (fun r => ∀ c : Dev nD,
      r.2.mem ((c.tc : Thread nD τ).loc main_v114) = W17 m ρ c (Proc.devRef .tc main_v114)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v114 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c)⟩)

end Cert.KernelIdeal.Bridge

end
-- ==== Proof.Spec.lean ====
/-
  The graph convolution network both programs compute, written once as a composition of a few stages.

  The graph: `row` lists the source node of every directed edge (the given sources, then every node once: the self
  loops) and `col` the target node. The degree of a node counts the edges arriving at it (`deg`: ones scattered and
  added at `col`), `dis` is its power -1/2 where the degree is positive and 0 elsewhere, and the weight of an edge is
  the product of `dis` at its two ends (`nrm`, kept as a column). One layer takes the node features already multiplied
  by the layer's weight matrix (`p`), gathers the row of each edge's source, scales it by the edge's weight, adds it
  into the row of the edge's target and adds the bias row (`agg…`); all layers but the last then take the positive part
  (`relu…`). `out` composes five layers, each applied to the matrix product of the previous layer's result with the
  layer's weights.

  Every stage is the printed host operations' own composition, so that a stretch of host operations of either program
  equals its stage by unfolding.
-/
import proofs.«158434_j22625887715477_1_alg».proof.Proof.Gen.ReferenceIdeal

noncomputable section

namespace Cert.ReferenceIdeal.Spec

open Cert.ReferenceIdeal Cert.ReferenceIdeal.Gen Idealize.ShloMosaic

variable {F : FTy → Type} [FloatOps F]

/-- The source node of every directed edge: the first row of the edge list, then the nodes themselves. -/
def row (e : (⟨S2x600000, .i32⟩ : BufTy).Contents (Elt F)) : (⟨S700000, .i32⟩ : BufTy).Contents (Elt F) :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

/-- The target node of every directed edge: the second row of the edge list, then the nodes themselves. -/
def col (e : (⟨S2x600000, .i32⟩ : BufTy).Contents (Elt F)) : (⟨S700000, .i32⟩ : BufTy).Contents (Elt F) :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

/-- A list of node numbers as a column of gather indices: a negative number counts from the end. -/
def wrap (r : (⟨S700000, .i32⟩ : BufTy).Contents (Elt F)) : (⟨S700000x1, .i32⟩ : BufTy).Contents (Elt F) :=
  broadcastInDim S700000x1 ![0] bcast_S700000_S700000x1_0 (select (cmpi .slt r (broadcastInDim S700000 ![] bcast_S_S700000 (constantI S_ 32 0#32))) (addi r (broadcastInDim S700000 ![] bcast_S_S700000 (constantI S_ 32 100000#32))) r)

/-- The number of edges arriving at each node. -/
def deg (cl : (⟨S700000, .i32⟩ : BufTy).Contents (Elt F)) : (⟨S100000, .f32⟩ : BufTy).Contents (Elt F) :=
  Host.scatterAdd scatter_S100000_S700000x1_S700000_n_0_0_1 (broadcastInDim S100000 ![] bcast_S_S100000 (constant S_ .f32 0x00000000#32)) (broadcastInDim S700000x1 ![0] bcast_S700000_S700000x1_0 cl) (broadcastInDim S700000 ![] bcast_S_S700000 (constant S_ .f32 0x3F800000#32))

/-- The degree to the power -1/2 where it is positive, 0 elsewhere. -/
def dis (cl : (⟨S700000, .i32⟩ : BufTy).Contents (Elt F)) : (⟨S100000, .f32⟩ : BufTy).Contents (Elt F) :=
  select (cmpf (F := F) .ogt (deg cl) (broadcastInDim S100000 ![] bcast_S_S100000 (constant S_ .f32 0x00000000#32))) (Host.powf (deg cl) (broadcastInDim S100000 ![] bcast_S_S100000 (constant S_ .f32 0xBF000000#32))) (broadcastInDim S100000 ![] bcast_S_S100000 (id (constant S_ .f32 0x00000000#32)))

/-- The weight of every edge, as a column: `dis` at its source times `dis` at its target. -/
def nrm (rw cl : (⟨S700000, .i32⟩ : BufTy).Contents (Elt F)) : (⟨S700000x1, .f32⟩ : BufTy).Contents (Elt F) :=
  broadcastInDim S700000x1 ![0] bcast_S700000_S700000x1_0 (mulf (Host.gather gather_S100000_S700000x1_S700000_n_0_n_n_0_1_1 (dis cl) (wrap rw)) (Host.gather gather_S100000_S700000x1_S700000_n_0_n_n_0_1_1 (dis cl) (wrap cl)))

/-- One layer's aggregation over 128 feature columns: the weighted source rows added at the targets, plus the bias. -/
def agg128 (p : (⟨S100000x128, .f32⟩ : BufTy).Contents (Elt F)) (nr : (⟨S700000x1, .f32⟩ : BufTy).Contents (Elt F))
    (cl rw : (⟨S700000, .i32⟩ : BufTy).Contents (Elt F)) (b : (⟨S128, .f32⟩ : BufTy).Contents (Elt F)) : (⟨S100000x128, .f32⟩ : BufTy).Contents (Elt F) :=
  addf (Host.scatterAdd scatter_S100000x128_S700000x1_S700000x128_1_0_0_1 (broadcastInDim S100000x128 ![] bcast_S_S100000x128 (constant S_ .f32 0x00000000#32)) (broadcastInDim S700000x1 ![0] bcast_S700000_S700000x1_0 cl) (mulf (broadcastInDim S700000x128 ![0, 1] bcast_S700000x1_S700000x128_0_1 nr) (Host.gather gather_S100000x128_S700000x1_S700000x128_1_0_n_n_0_1_1128 p (wrap rw)))) (broadcastInDim S100000x128 ![0, 1] bcast_S1x128_S100000x128_0_1 (broadcastInDim S1x128 ![1] bcast_S128_S1x128_1 b))

/-- The positive part, 128 feature columns. -/
def relu128 (x : (⟨S100000x128, .f32⟩ : BufTy).Contents (Elt F)) : (⟨S100000x128, .f32⟩ : BufTy).Contents (Elt F) :=
  maximumf x (broadcastInDim S100000x128 ![] bcast_S_S100000x128 (constant S_ .f32 0x00000000#32))

/-- One layer's aggregation over 64 feature columns. -/
def agg64 (p : (⟨S100000x64, .f32⟩ : BufTy).Contents (Elt F)) (nr : (⟨S700000x1, .f32⟩ : BufTy).Contents (Elt F))
    (cl rw : (⟨S700000, .i32⟩ : BufTy).Contents (Elt F)) (b : (⟨S64, .f32⟩ : BufTy).Contents (Elt F)) : (⟨S100000x64, .f32⟩ : BufTy).Contents (Elt F) :=
  addf (Host.scatterAdd scatter_S100000x64_S700000x1_S700000x64_1_0_0_1 (broadcastInDim S100000x64 ![] bcast_S_S100000x64 (constant S_ .f32 0x00000000#32)) (broadcastInDim S700000x1 ![0] bcast_S700000_S700000x1_0 cl) (mulf (broadcastInDim S700000x64 ![0, 1] bcast_S700000x1_S700000x64_0_1 nr) (Host.gather gather_S100000x64_S700000x1_S700000x64_1_0_n_n_0_1_164 p (wrap rw)))) (broadcastInDim S100000x64 ![0, 1] bcast_S1x64_S100000x64_0_1 (broadcastInDim S1x64 ![1] bcast_S64_S1x64_1 b))

/-- The positive part, 64 feature columns. -/
def relu64 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The last layer's aggregation, one feature column: the edge weights are already a column. -/
def agg1 (p : (⟨S100000x1, .f32⟩ : BufTy).Contents (Elt F)) (nr : (⟨S700000x1, .f32⟩ : BufTy).Contents (Elt F))
    (cl rw : (⟨S700000, .i32⟩ : BufTy).Contents (Elt F)) (b : (⟨S1, .f32⟩ : BufTy).Contents (Elt F)) : (⟨S100000x1, .f32⟩ : BufTy).Contents (Elt F) :=
  addf (Host.scatterAdd scatter_S100000x1_S700000x1_S700000x1_1_0_0_1 (broadcastInDim S100000x1 ![] bcast_S_S100000x1 (constant S_ .f32 0x00000000#32)) (broadcastInDim S700000x1 ![0] bcast_S700000_S700000x1_0 cl) (mulf nr (Host.gather gather_S100000x1_S700000x1_S700000x1_1_0_n_n_0_1_11 p (wrap rw)))) (broadcastInDim S100000x1 ![0, 1] bcast_S1x1_S100000x1_0_1 (broadcastInDim S1x1 ![1] bcast_S1_S1x1_1 b))

/-- The five matrix products, as the reference spells them. -/
abbrev mm1 (x : (⟨S100000x3, .f32⟩ : BufTy).Contents (Elt F)) (w : (⟨S3x128, .f32⟩ : BufTy).Contents (Elt F)) : (⟨S100000x128, .f32⟩ : BufTy).Contents (Elt F) :=
  Host.dotGeneral dot_S100000x3_S3x128_S100000x128_1_0_0_1_n_n none x w
abbrev mm2 (x : (⟨S100000x128, .f32⟩ : BufTy).Contents (Elt F)) (w : (⟨S128x128, .f32⟩ : BufTy).Contents (Elt F)) : (⟨S100000x128, .f32⟩ : BufTy).Contents (Elt F) :=
  Host.dotGeneral dot_S100000x128_S128x128_S100000x128_1_0_0_1_n_n none x w
abbrev mm3 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w
abbrev mm4 (x : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none x w
abbrev mm5 (x : (⟨S100000x64, .f32⟩ : BufTy).Contents (Elt F)) (w : (⟨S64x1, .f32⟩ : BufTy).Contents (Elt F)) : (⟨S100000x1, .f32⟩ : BufTy).Contents (Elt F) :=
  Host.dotGeneral dot_S100000x64_S64x1_S100000x1_1_0_0_1_n_n none x w

/-- The hidden features after each of the first four layers. -/
def h1 (x0 : (⟨S100000x3, .f32⟩ : BufTy).Contents (Elt F)) (e : (⟨S2x600000, .i32⟩ : BufTy).Contents (Elt F))
    (w1 : (⟨S3x128, .f32⟩ : BufTy).Contents (Elt F)) (b1 : (⟨S128, .f32⟩ : BufTy).Contents (Elt F)) : (⟨S100000x128, .f32⟩ : BufTy).Contents (Elt F) :=
  relu128 (agg128 (mm1 x0 w1) (nrm (row e) (col e)) (col e) (row e) b1)
def h2 (x0 : (⟨S100000x3, .f32⟩ : BufTy).Contents (Elt F)) (e : (⟨S2x600000, .i32⟩ : BufTy).Contents (Elt F))
    (w1 : (⟨S3x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) : (⟨S100000x128, .f32⟩ : BufTy).Contents (Elt F) :=
  relu128 (agg128 (mm2 (h1 x0 e w1 b1) w2) (nrm (row e) (col e)) (col e) (row e) b2)
def h3 (x0 : (⟨S100000x3, .f32⟩ : BufTy).Contents (Elt F)) (e : (⟨S2x600000, .i32⟩ : BufTy).Contents (Elt F))
    (w1 : (⟨S3x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F)) : (⟨S100000x64, .f32⟩ : BufTy).Contents (Elt F) :=
  relu64 (agg64 (mm3 (h2 x0 e w1 b1 w2 b2) w3) (nrm (row e) (col e)) (col e) (row e) b3)
def h4 (x0 : (⟨S100000x3, .f32⟩ : BufTy).Contents (Elt F)) (e : (⟨S2x600000, .i32⟩ : BufTy).Contents (Elt F))
    (w1 : (⟨S3x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F))
    (w4 : (⟨S64x64, .f32⟩ : BufTy).Contents (Elt F)) (b4 : (⟨S64, .f32⟩ : BufTy).Contents (Elt F)) : (⟨S100000x64, .f32⟩ : BufTy).Contents (Elt F) :=
  relu64 (agg64 (mm4 (h3 x0 e w1 b1 w2 b2 w3 b3) w4) (nrm (row e) (col e)) (col e) (row e) b4)

/-- The network's result: the fifth layer, without a positive part. -/
def out (x0 : (⟨S100000x3, .f32⟩ : BufTy).Contents (Elt F)) (e : (⟨S2x600000, .i32⟩ : BufTy).Contents (Elt F))
    (w1 : (⟨S3x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F))
    (w4 : (⟨S64x64, .f32⟩ : BufTy).Contents (Elt F)) (b4 : (⟨S64, .f32⟩ : BufTy).Contents (Elt F))
    (w5 : (⟨S64x1, .f32⟩ : BufTy).Contents (Elt F)) (b5 : (⟨S1, .f32⟩ : BufTy).Contents (Elt F)) : (⟨S100000x1, .f32⟩ : BufTy).Contents (Elt F) :=
  agg1 (mm5 (h4 x0 e w1 b1 w2 b2 w3 b3 w4 b4) w5) (nrm (row e) (col e)) (col e) (row e) b5

end Cert.ReferenceIdeal.Spec

end
-- ==== Proof.Keep.lean ====
/-
  A buffer that a stretch of host operations does not write keeps its contents.

  The host side of the program is twelve straight lines of tensor operations, run in order between the
  five matrix products. Each operation of a line rewrites exactly one buffer, its result, and leaves every
  other buffer as it was. So for each line we list, in order, the result buffer of every operation of the
  line (`writesK`), and show that the contents of any buffer outside that list are the same after the line
  as before it (`keepK`). Whether a given buffer is outside a list is decided by comparing references.
-/
import proofs.«158434_j22625887715477_1_alg».proof.Proof.Gen.KernelIdeal.Launch
import Idealize.ShloMosaic.Lib.StableHlo.Run

set_option maxRecDepth 1256

noncomputable section

namespace Cert.KernelIdeal.Bridge

open Cert.KernelIdeal Cert.KernelIdeal.Gen
open Idealize.ShloMosaic Idealize.ShloMosaic.TcCoe Idealize.SL.Sem

variable {F : FTy → Type} [FloatOps F]

/-- The result buffers of the 20 operations of `hostOps0`, in order. -/
def writes0 : List (Ref sig .tc) :=
  [ main_v0, main_v1, main_v2, main_v3, main_v4, main_v5, main_v6, main_cst, main_v7, main_cst_0, main_v8,
    main_v9, main_v10, main_cst_1, main_v11, main_v12, main_cst_2, main_v13, main_v14, main_cst_3 ]

/-- A buffer outside `writes0` holds after `hostOps0` what it held before. -/
theorem keep0 (W : Valuation τ sig (Elt F)) (r : Ref sig .tc) (hr : r ∉ writes0) :
    StableHlo.after hostOps0 W (Proc.devRef .tc r) = W (Proc.devRef .tc r) := by
  refine StableHlo.after_of_writes_sub (W := writes0) hostOps0 W ?_ hr
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 3 operations of `hostOps0_1`, in order. -/
def writes0_1 : List (Ref sig .tc) :=
  [ main_call0_v0, main_call0_v1, main_v15 ]

/-- A buffer outside `writes0_1` holds after `hostOps0_1` what it held before. -/
theorem keep0_1 (W : Valuation τ sig (Elt F)) (r : Ref sig .tc) (hr : r ∉ writes0_1) :
    StableHlo.after hostOps0_1 W (Proc.devRef .tc r) = W (Proc.devRef .tc r) := by
  refine StableHlo.after_of_writes_sub (W := writes0_1) hostOps0_1 W ?_ hr
  simp only [hostOps0_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 20 operations of `hostOps0_2`, in order. -/
def writes0_2 : List (Ref sig .tc) :=
  [ main_c, main_v16, main_v17, main_c_4, main_v18, main_v19, main_v20, main_v21, main_v22, main_c_5,
    main_v23, main_v24, main_c_6, main_v25, main_v26, main_v27, main_v28, main_v29, main_v30, main_v31 ]

/-- A buffer outside `writes0_2` holds after `hostOps0_2` what it held before. -/
theorem keep0_2 (W : Valuation τ sig (Elt F)) (r : Ref sig .tc) (hr : r ∉ writes0_2) :
    StableHlo.after hostOps0_2 W (Proc.devRef .tc r) = W (Proc.devRef .tc r) := by
  refine StableHlo.after_of_writes_sub (W := writes0_2) hostOps0_2 W ?_ hr
  simp only [hostOps0_2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 18 operations of `hostOps1`, in order. -/
def writes1 : List (Ref sig .tc) :=
  [ main_c_7, main_v33, main_v34, main_c_8, main_v35, main_v36, main_v37, main_v38, main_v39, main_v40,
    main_v41, main_cst_9, main_v42, main_v43, main_v44, main_v45, main_v46, main_v47 ]

/-- A buffer outside `writes1` holds after `hostOps1` what it held before. -/
theorem keep1 (W : Valuation τ sig (Elt F)) (r : Ref sig .tc) (hr : r ∉ writes1) :
    StableHlo.after hostOps1 W (Proc.devRef .tc r) = W (Proc.devRef .tc r) := by
  refine StableHlo.after_of_writes_sub (W := writes1) hostOps1 W ?_ hr
  simp only [hostOps1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 3 operations of `hostOps1_1`, in order. -/
def writes1_1 : List (Ref sig .tc) :=
  [ main_call1_cst, main_call1_v0, main_v48 ]

/-- A buffer outside `writes1_1` holds after `hostOps1_1` what it held before. -/
theorem keep1_1 (W : Valuation τ sig (Elt F)) (r : Ref sig .tc) (hr : r ∉ writes1_1) :
    StableHlo.after hostOps1_1 W (Proc.devRef .tc r) = W (Proc.devRef .tc r) := by
  refine StableHlo.after_of_writes_sub (W := writes1_1) hostOps1_1 W ?_ hr
  simp only [hostOps1_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 18 operations of `hostOps2`, in order. -/
def writes2 : List (Ref sig .tc) :=
  [ main_c_10, main_v50, main_v51, main_c_11, main_v52, main_v53, main_v54, main_v55, main_v56, main_v57,
    main_v58, main_cst_12, main_v59, main_v60, main_v61, main_v62, main_v63, main_v64 ]

/-- A buffer outside `writes2` holds after `hostOps2` what it held before. -/
theorem keep2 (W : Valuation τ sig (Elt F)) (r : Ref sig .tc) (hr : r ∉ writes2) :
    StableHlo.after hostOps2 W (Proc.devRef .tc r) = W (Proc.devRef .tc r) := by
  refine StableHlo.after_of_writes_sub (W := writes2) hostOps2 W ?_ hr
  simp only [hostOps2, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 3 operations of `hostOps2_1`, in order. -/
def writes2_1 : List (Ref sig .tc) :=
  [ main_call2_cst, main_call2_v0, main_v65 ]

/-- A buffer outside `writes2_1` holds after `hostOps2_1` what it held before. -/
theorem keep2_1 (W : Valuation τ sig (Elt F)) (r : Ref sig .tc) (hr : r ∉ writes2_1) :
    StableHlo.after hostOps2_1 W (Proc.devRef .tc r) = W (Proc.devRef .tc r) := by
  refine StableHlo.after_of_writes_sub (W := writes2_1) hostOps2_1 W ?_ hr
  simp only [hostOps2_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 18 operations of `hostOps3`, in order. -/
def writes3 : List (Ref sig .tc) :=
  [ main_c_13, main_v67, main_v68, main_c_14, main_v69, main_v70, main_v71, main_v72, main_v73, main_v74,
    main_v75, main_cst_15, main_v76, main_v77, main_v78, main_v79, main_v80, main_v81 ]

/-- A buffer outside `writes3` holds after `hostOps3` what it held before. -/
theorem keep3 (W : Valuation τ sig (Elt F)) (r : Ref sig .tc) (hr : r ∉ writes3) :
    StableHlo.after hostOps3 W (Proc.devRef .tc r) = W (Proc.devRef .tc r) := by
  refine StableHlo.after_of_writes_sub (W := writes3) hostOps3 W ?_ hr
  simp only [hostOps3, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 3 operations of `hostOps3_1`, in order. -/
def writes3_1 : List (Ref sig .tc) :=
  [ main_call3_cst, main_call3_v0, main_v82 ]

/-- A buffer outside `writes3_1` holds after `hostOps3_1` what it held before. -/
theorem keep3_1 (W : Valuation τ sig (Elt F)) (r : Ref sig .tc) (hr : r ∉ writes3_1) :
    StableHlo.after hostOps3_1 W (Proc.devRef .tc r) = W (Proc.devRef .tc r) := by
  refine StableHlo.after_of_writes_sub (W := writes3_1) hostOps3_1 W ?_ hr
  simp only [hostOps3_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 18 operations of `hostOps4`, in order. -/
def writes4 : List (Ref sig .tc) :=
  [ main_c_16, main_v84, main_v85, main_c_17, main_v86, main_v87, main_v88, main_v89, main_v90, main_v91,
    main_v92, main_cst_18, main_v93, main_v94, main_v95, main_v96, main_v97, main_v98 ]

/-- A buffer outside `writes4` holds after `hostOps4` what it held before. -/
theorem keep4 (W : Valuation τ sig (Elt F)) (r : Ref sig .tc) (hr : r ∉ writes4) :
    StableHlo.after hostOps4 W (Proc.devRef .tc r) = W (Proc.devRef .tc r) := by
  refine StableHlo.after_of_writes_sub (W := writes4) hostOps4 W ?_ hr
  simp only [hostOps4, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 3 operations of `hostOps4_1`, in order. -/
def writes4_1 : List (Ref sig .tc) :=
  [ main_call4_cst, main_call4_v0, main_v99 ]

/-- A buffer outside `writes4_1` holds after `hostOps4_1` what it held before. -/
theorem keep4_1 (W : Valuation τ sig (Elt F)) (r : Ref sig .tc) (hr : r ∉ writes4_1) :
    StableHlo.after hostOps4_1 W (Proc.devRef .tc r) = W (Proc.devRef .tc r) := by
  refine StableHlo.after_of_writes_sub (W := writes4_1) hostOps4_1 W ?_ hr
  simp only [hostOps4_1, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- The result buffers of the 17 operations of `hostOps5`, in order. -/
def writes5 : List (Ref sig .tc) :=
  [ main_c_19, main_v101, main_v102, main_c_20, main_v103, main_v104, main_v105, main_v106, main_v107,
    main_v108, main_cst_21, main_v109, main_v110, main_v111, main_v112, main_v113, main_v114 ]

/-- A buffer outside `writes5` holds after `hostOps5` what it held before. -/
theorem keep5 (W : Valuation τ sig (Elt F)) (r : Ref sig .tc) (hr : r ∉ writes5) :
    StableHlo.after hostOps5 W (Proc.devRef .tc r) = W (Proc.devRef .tc r) := by
  refine StableHlo.after_of_writes_sub (W := writes5) hostOps5 W ?_ hr
  simp only [hostOps5, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-! The lemmas in use: a buffer written before a line, and not by it, is read after the line as it was. -/

example (W : Valuation τ sig (Elt F)) :
    StableHlo.after hostOps1 W (Proc.devRef .tc main_v31) = W (Proc.devRef .tc main_v31) :=
  keep1 W main_v31 (by decide)

example (W : Valuation τ sig (Elt F)) :
    StableHlo.after hostOps0_1 W (Proc.devRef .tc main_v12) = W (Proc.devRef .tc main_v12) :=
  keep0_1 W main_v12 (by decide)

end Cert.KernelIdeal.Bridge
-- ==== Proof.HostPre.lean ====
/-
  The host operations before the first matrix product compute the graph's edge lists and edge weights.

  The first stretch splits the edge list into the sources and the targets and appends every node once to each (the
  self loops), counts the edges arriving at each node by adding ones at the targets, and starts the power -1/2 of the
  counts; the called function (three operations) keeps that power where the count is positive and 0 elsewhere; the
  last stretch wraps the sources and the targets into gather indices, gathers that power at both ends of every edge
  and multiplies the two, as a column. So after the three stretches the sources hold `Spec.row` of the given edge
  list, the targets `Spec.col` of it, and the edge weights `Spec.nrm` of the two: each operation's result is its
  function of its operands' contents, an operation that does not write a buffer leaves it as it was, and the
  composition is the stages' own text.
-/
import proofs.«158434_j22625887715477_1_alg».proof.Proof.Gen.KernelIdeal.Launch
import proofs.«158434_j22625887715477_1_alg».proof.Proof.Spec
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable {F : FTy → Type} [FloatOps F]

/-- The sources of the edges, self loops appended. -/
theorem pre_row (W : Valuation τ sig (Elt F)) :
    StableHlo.after hostOps0_2 (StableHlo.after hostOps0_1 (StableHlo.after hostOps0 W)) (Proc.devRef .tc main_v3)
      = Cert.ReferenceIdeal.Spec.row (W (Proc.devRef .tc main_arg1)) := by
  after_results_simp
  rfl

/-- The targets of the edges, self loops appended. -/
theorem pre_col (W : Valuation τ sig (Elt F)) :
    StableHlo.after hostOps0_2 (StableHlo.after hostOps0_1 (StableHlo.after hostOps0 W)) (Proc.devRef .tc main_v6)
      = Cert.ReferenceIdeal.Spec.col (W (Proc.devRef .tc main_arg1)) := by
  after_results_simp
  rfl

/-- The weight of every edge, as a column. -/
theorem pre_nrm (W : Valuation τ sig (Elt F)) :
    StableHlo.after hostOps0_2 (StableHlo.after hostOps0_1 (StableHlo.after hostOps0 W)) (Proc.devRef .tc main_v31)
      = Cert.ReferenceIdeal.Spec.nrm (Cert.ReferenceIdeal.Spec.row (W (Proc.devRef .tc main_arg1)))
          (Cert.ReferenceIdeal.Spec.col (W (Proc.devRef .tc main_arg1))) := by
  after_results_simp
  rfl

end Cert.KernelIdeal.Bridge

end
-- ==== Proof.HostStage1.lean ====
/-
  The host operations between the first matrix product and the next one are one layer of the network.

  After the product the program wraps the source node numbers into gather indices, gathers the row of each edge's
  source from the product, scales every column of it by the edge's weight, adds it into the row of the edge's target
  starting from zeros, adds the bias row, and takes the positive part (the last step is the called function's body, of
  three operations). This is `Spec.relu128` of `Spec.agg128` applied to what the product, the edge weights, the
  targets, the sources and the bias hold: each operation's result is its function of its operands' contents, and the
  composition is the two stages' own text, over 128 feature columns.
-/
import proofs.«158434_j22625887715477_1_alg».proof.Proof.Gen.KernelIdeal.Launch
import proofs.«158434_j22625887715477_1_alg».proof.Proof.Spec
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable {F : FTy → Type} [FloatOps F]

/-- What the layer's result buffer holds after the two stretches: the layer applied to the contents before them. -/
theorem stage1 (W : Valuation τ sig (Elt F)) :
    StableHlo.after hostOps1_1 (StableHlo.after hostOps1 W) (Proc.devRef .tc main_v48)
      = Cert.ReferenceIdeal.Spec.relu128 (Cert.ReferenceIdeal.Spec.agg128 (W (Proc.devRef .tc main_v32))
          (W (Proc.devRef .tc main_v31)) (W (Proc.devRef .tc main_v6)) (W (Proc.devRef .tc main_v3))
          (W (Proc.devRef .tc main_arg3))) := by
  after_results_simp
  rfl

end Cert.KernelIdeal.Bridge

end
-- ==== Proof.HostStage2.lean ====
/-
  The host operations between the second matrix product and the next one are one layer of the network.

  After the product the program wraps the source node numbers into gather indices, gathers the row of each edge's
  source from the product, scales every column of it by the edge's weight, adds it into the row of the edge's target
  starting from zeros, adds the bias row, and takes the positive part (the last step is the called function's body, of
  three operations). This is `Spec.relu128` of `Spec.agg128` applied to what the product, the edge weights, the
  targets, the sources and the bias hold: each operation's result is its function of its operands' contents, and the
  composition is the two stages' own text, over 128 feature columns.
-/
import proofs.«158434_j22625887715477_1_alg».proof.Proof.Gen.KernelIdeal.Launch
import proofs.«158434_j22625887715477_1_alg».proof.Proof.Spec
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable {F : FTy → Type} [FloatOps F]

/-- What the layer's result buffer holds after the two stretches: the layer applied to the contents before them. -/
theorem stage2 (W : Valuation τ sig (Elt F)) :
    StableHlo.after hostOps2_1 (StableHlo.after hostOps2 W) (Proc.devRef .tc main_v65)
      = Cert.ReferenceIdeal.Spec.relu128 (Cert.ReferenceIdeal.Spec.agg128 (W (Proc.devRef .tc main_v49))
          (W (Proc.devRef .tc main_v31)) (W (Proc.devRef .tc main_v6)) (W (Proc.devRef .tc main_v3))
          (W (Proc.devRef .tc main_arg5))) := by
  after_results_simp
  rfl

end Cert.KernelIdeal.Bridge

end
-- ==== Proof.HostStage3.lean ====
/-
  The host operations between the third matrix product and the next one are one layer of the network.

  After the product the program wraps the source node numbers into gather indices, gathers the row of each edge's
  source from the product, scales every column of it by the edge's weight, adds it into the row of the edge's target
  starting from zeros, adds the bias row, and takes the positive part (the last step is the called function's body, of
  three operations). This is `Spec.relu64` of `Spec.agg64` applied to what the product, the edge weights, the
  targets, the sources and the bias hold: each operation's result is its function of its operands' contents, and the
  composition is the two stages' own text, over 64 feature columns.
-/
import proofs.«158434_j22625887715477_1_alg».proof.Proof.Gen.KernelIdeal.Launch
import proofs.«158434_j22625887715477_1_alg».proof.Proof.Spec
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable {F : FTy → Type} [FloatOps F]

/-- What the layer's result buffer holds after the two stretches: the layer applied to the contents before them. -/
theorem stage3 (W : Valuation τ sig (Elt F)) :
    StableHlo.after hostOps3_1 (StableHlo.after hostOps3 W) (Proc.devRef .tc main_v82)
      = Cert.ReferenceIdeal.Spec.relu64 (Cert.ReferenceIdeal.Spec.agg64 (W (Proc.devRef .tc main_v66))
          (W (Proc.devRef .tc main_v31)) (W (Proc.devRef .tc main_v6)) (W (Proc.devRef .tc main_v3))
          (W (Proc.devRef .tc main_arg7))) := by
  after_results_simp
  rfl

end Cert.KernelIdeal.Bridge

end
-- ==== Proof.HostStage4.lean ====
/-
  The host operations between the fourth matrix product and the next one are one layer of the network.

  After the product the program wraps the source node numbers into gather indices, gathers the row of each edge's
  source from the product, scales every column of it by the edge's weight, adds it into the row of the edge's target
  starting from zeros, adds the bias row, and takes the positive part (the last step is the called function's body, of
  three operations). This is `Spec.relu64` of `Spec.agg64` applied to what the product, the edge weights, the
  targets, the sources and the bias hold: each operation's result is its function of its operands' contents, and the
  composition is the two stages' own text, over 64 feature columns.
-/
import proofs.«158434_j22625887715477_1_alg».proof.Proof.Gen.KernelIdeal.Launch
import proofs.«158434_j22625887715477_1_alg».proof.Proof.Spec
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable {F : FTy → Type} [FloatOps F]

/-- What the layer's result buffer holds after the two stretches: the layer applied to the contents before them. -/
theorem stage4 (W : Valuation τ sig (Elt F)) :
    StableHlo.after hostOps4_1 (StableHlo.after hostOps4 W) (Proc.devRef .tc main_v99)
      = Cert.ReferenceIdeal.Spec.relu64 (Cert.ReferenceIdeal.Spec.agg64 (W (Proc.devRef .tc main_v83))
          (W (Proc.devRef .tc main_v31)) (W (Proc.devRef .tc main_v6)) (W (Proc.devRef .tc main_v3))
          (W (Proc.devRef .tc main_arg9))) := by
  after_results_simp
  rfl

end Cert.KernelIdeal.Bridge

end
-- ==== Proof.HostTail.lean ====
/-
  The last stretch of host operations of the kernel program is the fifth layer's aggregation.

  After the fifth matrix product the program wraps the source node numbers into gather indices, gathers the row of each
  edge's source from the product, scales it by the edge's weight, adds it into the row of the edge's target starting
  from zeros, and adds the bias. This is the stage `Spec.agg1` applied to what the product, the edge weights, the
  targets, the sources and the bias hold: each operation's result is its function of its operands' contents, and the
  composition is the stage's own text.
-/
import proofs.«158434_j22625887715477_1_alg».proof.Proof.Gen.KernelIdeal.Launch
import proofs.«158434_j22625887715477_1_alg».proof.Proof.Spec
import Idealize.ShloMosaic.Lib.StableHlo.Run

noncomputable section

namespace Cert.KernelIdeal.Bridge

open Cert.KernelIdeal Cert.KernelIdeal.Gen Idealize.ShloMosaic Idealize.ShloMosaic.TcCoe Idealize.SL.Sem

variable {F : FTy → Type} [FloatOps F]

/-- What the result buffer holds after the last stretch: the fifth layer's aggregation of the contents before it. -/
theorem tail5 (W : Valuation τ sig (Elt F)) :
    StableHlo.after hostOps5 W (Proc.devRef .tc main_v114)
      = Cert.ReferenceIdeal.Spec.agg1 (W (Proc.devRef .tc main_v100)) (W (Proc.devRef .tc main_v31))
          (W (Proc.devRef .tc main_v6)) (W (Proc.devRef .tc main_v3)) (W (Proc.devRef .tc main_arg11)) := by
  after_results_simp
  rfl

end Cert.KernelIdeal.Bridge

end
-- ==== Proof.LibMatmulRows.lean ====
/-
  A matrix product accumulated into zero, read one entry at a time.

  For the plain dimension numbers "rows by contraction, times contraction by columns" (`DotDims.plain M K N`: the left
  operand is [M, K], the right one [K, N], the result [M, N], no batch axis) the entry (p, q) of a `tpu.matmul` whose
  accumulator is the zero splat is, at the ideal values, the sum over the contraction position k of left (p, k) times
  right (k, q). So entry (p, q) depends on row p of the left operand and on column q of the right operand and on nothing
  else: a product computed on a block of rows is the block of rows of the product. The host's `dot_general` with the same
  dimension numbers reads the same way (it has no accumulator). Nothing of real arithmetic is used beyond 0 + x = x, so
  the statements hold at the infinities too.
-/
import Idealize.ShloMosaic.Lib.ValueIdx
import Idealize.ShloMosaic.PureOps.Ideal.Laws

noncomputable section

open scoped BigOperators

namespace Cert.Bridge

open Idealize.ShloMosaic Idealize.ShloMosaic.ValueIdx

/-- The left operand's row coordinate at output index `j` is `j`'s row, whatever the contraction position. -/
theorem plain_lhsIdx_row (M K N : Nat) (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate at output index `j` is `j`'s column, whatever the contraction position. -/
theorem plain_rhsIdx_col (M K N : Nat) (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index of a plain product, re-indexed by the contraction coordinate:
    the left factor is read at (p, k), the right one at (k, q). -/
theorem plain_contr_sum (M K N : Nat) (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhsIdx_row M K N _ _
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => exact plain_rhsIdx_col M K N _ _)
  rw [el, er]

/-- A plain `tpu.matmul` into the zero splat, read at (p, q): row p of the left operand against column q of the right. -/
theorem matmul_plain_zero_apply {φ₁ φ₂ : FTy} (M K N : Nat) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contr_sum M K N lhs rhs p q)

/-- The host's plain `dot_general`, read at (p, q): the same sum. -/
theorem dotGeneral_plain_apply {φ₁ φ₂ : FTy} (M K N : Nat) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q) = ∑ k : Fin K, lhs (ix2 p k) * rhs (ix2 k q) :=
  (Ideal.dotGeneral_apply (DotDims.plain M K N) prec sched lhs rhs (ix2 p q)).trans (plain_contr_sum M K N lhs rhs p q)

end Cert.Bridge

end
-- ==== Proof.Region0.lean ====
/-
  What the first matrix-product region leaves in its output array.

  The region multiplies the [100000, 3] feature matrix by the [3, 128] weight matrix ten thousand rows at a time: at
  row block t the body loads rows 10000 t … 10000 t + 9999 of the left matrix and the whole weight matrix, and stores
  their product, accumulated into zero, as rows 10000 t … 10000 t + 9999 of the [100000, 128] result. Entry (p, q) of a
  product is the sum over k of left (p, k) times right (k, q): it reads row p of the left factor and nothing else of it,
  so the product of a block of rows is that block of rows of the whole product. The ten blocks tile the result's rows
  (the block holding row r is r / 10000), hence the array the region leaves is the whole product, entry by entry. At the
  ideal values the conversion to the narrower format before the product is the identity.
-/
import proofs.«158434_j22625887715477_1_alg».proof.Proof.Gen.KernelIdeal.Frame
import proofs.«158434_j22625887715477_1_alg».proof.Proof.Spec
import proofs.«158434_j22625887715477_1_alg».proof.Proof.LibMatmulRows
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets, however spelt. -/
theorem hz0 : (![0, 0] : Fin 2 → Nat) = fun _ => 0 := funext fun a => by fin_cases a <;> rfl

/-- The body's payload at entry (r, q): row r of the loaded block of the left matrix against column q of the weights. -/
theorem pay0_apply (x0 : Vec Ideal S10000x3 .f32) (x1 : Vec Ideal S3x128 .f32) (r : Fin 10000) (q : Fin 128) :
    k0_pay1 (F := Ideal) x0 x1 (ix2 r q) = ∑ k : Fin 3, x0 (ix2 r k) * x1 (ix2 k q) :=
  Cert.Bridge.matmul_plain_zero_apply 10000 3 128 none (truncf .bf16 x0 bitsLt_bf16_f32) (truncf .bf16 x1 bitsLt_bf16_f32) r q

/-- The whole product at entry (p, q). -/
theorem mm1_apply (x : (⟨Cert.ReferenceIdeal.S100000x3, .f32⟩ : BufTy).Contents (Elt Ideal)) (w : (⟨Cert.ReferenceIdeal.S3x128, .f32⟩ : BufTy).Contents (Elt Ideal))
    (p : Fin 100000) (q : Fin 128) :
    Cert.ReferenceIdeal.Spec.mm1 (F := Ideal) x w (ix2 p q) = ∑ k : Fin 3, x (ix2 p k) * w (ix2 k q) :=
  Cert.Bridge.dotGeneral_plain_apply 100000 3 128 none .single x w p q

/-- The printed index maps, decided over the ten row blocks: the left matrix's block moves with the result's along the
    rows and sits at column block 0, the weights' block is always the whole matrix, the result's block sits at column
    block 0 and its row block is at most 9. -/
theorem idx_facts0 : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks of the result is some point's. -/
theorem idx_onto0 : ∀ q : Fin 10, ∃ t : Fin cfg0.N, win0_2.index t (0 : Fin 2) = q.val :=
  (by decide +kernel : ∀ q : Fin 10, ∃ t : Fin grid0.N, win0_2.index t (0 : Fin 2) = q.val)

/-- The payload at any index of the block, and the whole product at any index of the array. -/
theorem pay0_at (x0 : Vec Ideal S10000x3 .f32) (x1 : Vec Ideal S3x128 .f32) (j : S10000x128.Idx) :
    k0_pay1 (F := Ideal) x0 x1 j = ∑ k : Fin 3, x0 (ix2 (j 0) k) * x1 (ix2 k (j 1)) :=
  (congrArg (k0_pay1 (F := Ideal) x0 x1) (eq_ix2 j)).trans (pay0_apply x0 x1 (j 0) (j 1))

theorem mm1_at (x : (⟨Cert.ReferenceIdeal.S100000x3, .f32⟩ : BufTy).Contents (Elt Ideal)) (w : (⟨Cert.ReferenceIdeal.S3x128, .f32⟩ : BufTy).Contents (Elt Ideal))
    (i : S100000x128.Idx) :
    Cert.ReferenceIdeal.Spec.mm1 (F := Ideal) x w i = ∑ k : Fin 3, x (ix2 (i 0) k) * w (ix2 k (i 1)) :=
  (congrArg (Cert.ReferenceIdeal.Spec.mm1 (F := Ideal) x w) (eq_ix2 i)).trans (mm1_apply x w (i 0) (i 1))

variable (V : (c : Dev nD) → (b : Ref sig .tc) → Buf (Elt Ideal) ((c : Thread nD τ).loc b))

/-- What row block t writes back is rows 10000 t … 10000 t + 9999 of the whole product of the arrays the region finds. -/
theorem flushed0_eq (c : Dev nD) (t : Fin cfg0.N) :
    (dat0 (F := Ideal) V c).flushed 2 t
      = ((cfg0.win 2).blk t).view.read (Elt Ideal) (Cert.ReferenceIdeal.Spec.mm1 (F := Ideal) (V c main_arg0) (V c main_arg2)) := by
  show (cfg0.win 2).cut (grid0.coords t) ((dat0 V c).after 2 t) = _
  rw [after0_2]
  unfold out0_2
  rw [View.canon_unit_zero hz0]
  simp only [View.ld_unit_zero (S := S10000x3) hz0, View.ld_unit_zero (S := S3x128) hz0]
  obtain ⟨e0, e1, e2, e3, e4, e5⟩ := idx_facts0 t
  funext j
  refine (pay0_at (iblk0 V c 0 t) (iblk0 V c 1 t) j).trans ?_
  refine Eq.trans ?_ (mm1_at (V c main_arg0) (V c main_arg2) (((cfg0.win 2).blk t).view.emb j)).symm
  refine Finset.sum_congr rfl fun k _ => ?_
  have h0 : ((cfg0.win 0).blk t).view.emb (ix2 (j 0) k)
      = ix2 (n0 := 100000) (n1 := 3) ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 3 + 1 * k.val = k.val; omega
  have h1 : ((cfg0.win 1).blk t).view.emb (ix2 k (j 1))
      = ix2 (n0 := 3) (n1 := 128) k ((((cfg0.win 2).blk t).view.emb j) 1) := by
    funext a; apply Fin.ext
    match a with
    | ⟨0, _⟩ => show win0_1.index t (0 : Fin 2) * 3 + 1 * k.val = k.val; omega
    | ⟨1, _⟩ => show win0_1.index t (1 : Fin 2) * 128 + 1 * (j 1).val = win0_2.index t (1 : Fin 2) * 128 + 1 * (j 1).val; omega
  exact congrArg₂ (· * ·) (congrArg (V c main_arg0) h0) (congrArg (V c main_arg2) h1)

/-- An index of the result array is in row block t's rectangle iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every index of the result array is in some row block's rectangle: row r is in block r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 10000, by omega⟩
  have ht' : win0_2.index t (0 : Fin 2) = (i 0).val / 10000 := ht
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The array the region leaves is the whole product of the left and weight arrays it finds. -/
theorem region0 (c : Dev nD) :
    (Gen.dat0 (F := Ideal) V c).arrAt 2 cfg0.N = Cert.ReferenceIdeal.Spec.mm1 (F := Ideal) (V c main_arg0) (V c main_arg2) :=
  (dat0 V c).arrAt_eq_of_cover 2 _ (fun t _ => flushed0_eq V c t) (fun i => cover0 i)

end Cert.KernelIdeal.Bridge

end
-- ==== Proof.Region1.lean ====
/-
  What the second matrix-product region leaves in its output array.

  The region multiplies the [100000, 128] matrix of hidden features by the [128, 128] weight matrix ten thousand rows at a time: at
  row block t the body loads rows 10000 t … 10000 t + 9999 of the left matrix and the whole weight matrix, and stores
  their product, accumulated into zero, as rows 10000 t … 10000 t + 9999 of the [100000, 128] result. Entry (p, q) of a
  product is the sum over k of left (p, k) times right (k, q): it reads row p of the left factor and nothing else of it,
  so the product of a block of rows is that block of rows of the whole product. The ten blocks tile the result's rows
  (the block holding row r is r / 10000), hence the array the region leaves is the whole product, entry by entry. At the
  ideal values the conversion to the narrower format before the product is the identity. The body first recasts the loaded block to
  its own shape, which changes nothing.
-/
import proofs.«158434_j22625887715477_1_alg».proof.Proof.Gen.KernelIdeal.Frame
import proofs.«158434_j22625887715477_1_alg».proof.Proof.Spec
import proofs.«158434_j22625887715477_1_alg».proof.Proof.LibMatmulRows
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets, however spelt. -/
theorem hz1 : (![0, 0] : Fin 2 → Nat) = fun _ => 0 := funext fun a => by fin_cases a <;> rfl

/-- The body's payload at entry (r, q): row r of the loaded block of the left matrix against column q of the weights. -/
theorem pay1_apply (x0 : Vec Ideal S10000x128 .f32) (x1 : Vec Ideal S128x128 .f32) (r : Fin 10000) (q : Fin 128) :
    k1_pay1 (F := Ideal) x0 x1 (ix2 r q) = ∑ k : Fin 128, x0 (ix2 r k) * x1 (ix2 k q) := by
  unfold k1_pay1
  rw [shapeCast_self]
  exact Cert.Bridge.matmul_plain_zero_apply 10000 128 128 none (truncf .bf16 x0 bitsLt_bf16_f32) (truncf .bf16 x1 bitsLt_bf16_f32) r q

/-- The whole product at entry (p, q). -/
theorem mm2_apply (x : (⟨Cert.ReferenceIdeal.S100000x128, .f32⟩ : BufTy).Contents (Elt Ideal)) (w : (⟨Cert.ReferenceIdeal.S128x128, .f32⟩ : BufTy).Contents (Elt Ideal))
    (p : Fin 100000) (q : Fin 128) :
    Cert.ReferenceIdeal.Spec.mm2 (F := Ideal) x w (ix2 p q) = ∑ k : Fin 128, x (ix2 p k) * w (ix2 k q) :=
  Cert.Bridge.dotGeneral_plain_apply 100000 128 128 none .single x w p q

/-- The printed index maps, decided over the ten row blocks: the left matrix's block moves with the result's along the
    rows and sits at column block 0, the weights' block is always the whole matrix, the result's block sits at column
    block 0 and its row block is at most 9. -/
theorem idx_facts1 : ∀ t : Fin cfg1.N, win1_0.index t (0 : Fin 2) = win1_2.index t (0 : Fin 2)
    ∧ win1_0.index t (1 : Fin 2) = 0
    ∧ win1_1.index t (0 : Fin 2) = 0 ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks of the result is some point's. -/
theorem idx_onto1 : ∀ q : Fin 10, ∃ t : Fin cfg1.N, win1_2.index t (0 : Fin 2) = q.val :=
  (by decide +kernel : ∀ q : Fin 10, ∃ t : Fin grid1.N, win1_2.index t (0 : Fin 2) = q.val)

/-- The payload at any index of the block, and the whole product at any index of the array. -/
theorem pay1_at (x0 : Vec Ideal S10000x128 .f32) (x1 : Vec Ideal S128x128 .f32) (j : S10000x128.Idx) :
    k1_pay1 (F := Ideal) x0 x1 j = ∑ k : Fin 128, x0 (ix2 (j 0) k) * x1 (ix2 k (j 1)) :=
  (congrArg (k1_pay1 (F := Ideal) x0 x1) (eq_ix2 j)).trans (pay1_apply x0 x1 (j 0) (j 1))

theorem mm2_at (x : (⟨Cert.ReferenceIdeal.S100000x128, .f32⟩ : BufTy).Contents (Elt Ideal)) (w : (⟨Cert.ReferenceIdeal.S128x128, .f32⟩ : BufTy).Contents (Elt Ideal))
    (i : S100000x128.Idx) :
    Cert.ReferenceIdeal.Spec.mm2 (F := Ideal) x w i = ∑ k : Fin 128, x (ix2 (i 0) k) * w (ix2 k (i 1)) :=
  (congrArg (Cert.ReferenceIdeal.Spec.mm2 (F := Ideal) x w) (eq_ix2 i)).trans (mm2_apply x w (i 0) (i 1))

variable (V : (c : Dev nD) → (b : Ref sig .tc) → Buf (Elt Ideal) ((c : Thread nD τ).loc b))

/-- What row block t writes back is rows 10000 t … 10000 t + 9999 of the whole product of the arrays the region finds. -/
theorem flushed1_eq (c : Dev nD) (t : Fin cfg1.N) :
    (dat1 (F := Ideal) V c).flushed 2 t
      = ((cfg1.win 2).blk t).view.read (Elt Ideal) (Cert.ReferenceIdeal.Spec.mm2 (F := Ideal) (V c main_v48) (V c main_arg4)) := by
  show (cfg1.win 2).cut (grid1.coords t) ((dat1 V c).after 2 t) = _
  rw [after1_2]
  unfold out1_2
  rw [View.canon_unit_zero hz1]
  simp only [View.ld_unit_zero (S := S10000x128) hz1, View.ld_unit_zero (S := S128x128) hz1]
  obtain ⟨e0, e1, e2, e3, e4, e5⟩ := idx_facts1 t
  funext j
  refine (pay1_at (iblk1 V c 0 t) (iblk1 V c 1 t) j).trans ?_
  refine Eq.trans ?_ (mm2_at (V c main_v48) (V c main_arg4) (((cfg1.win 2).blk t).view.emb j)).symm
  refine Finset.sum_congr rfl fun k _ => ?_
  have h0 : ((cfg1.win 0).blk t).view.emb (ix2 (j 0) k)
      = ix2 (n0 := 100000) (n1 := 128) ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * k.val = k.val; omega
  have h1 : ((cfg1.win 1).blk t).view.emb (ix2 k (j 1))
      = ix2 (n0 := 128) (n1 := 128) k ((((cfg1.win 2).blk t).view.emb j) 1) := by
    funext a; apply Fin.ext
    match a with
    | ⟨0, _⟩ => show win1_1.index t (0 : Fin 2) * 128 + 1 * k.val = k.val; omega
    | ⟨1, _⟩ => show win1_1.index t (1 : Fin 2) * 128 + 1 * (j 1).val = win1_2.index t (1 : Fin 2) * 128 + 1 * (j 1).val; omega
  exact congrArg₂ (· * ·) (congrArg (V c main_v48) h0) (congrArg (V c main_arg4) h1)

/-- An index of the result array is in row block t's rectangle iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Every index of the result array is in some row block's rectangle: row r is in block r / 10000. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 10000, by omega⟩
  have ht' : win1_2.index t (0 : Fin 2) = (i 0).val / 10000 := ht
  obtain ⟨e0, e1, e2, e3, e4, e5⟩ := idx_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The array the region leaves is the whole product of the left and weight arrays it finds. -/
theorem region1 (c : Dev nD) :
    (Gen.dat1 (F := Ideal) V c).arrAt 2 cfg1.N = Cert.ReferenceIdeal.Spec.mm2 (F := Ideal) (V c main_v48) (V c main_arg4) :=
  (dat1 V c).arrAt_eq_of_cover 2 _ (fun t _ => flushed1_eq V c t) (fun i => cover1 i)

end Cert.KernelIdeal.Bridge

end
-- ==== Proof.Region2.lean ====
/-
  What the third matrix-product region leaves in its output array.

  The region multiplies the [100000, 128] matrix of hidden features by the [128, 64] weight matrix ten thousand rows at a time: at
  row block t the body loads rows 10000 t … 10000 t + 9999 of the left matrix and the whole weight matrix, and stores
  their product, accumulated into zero, as rows 10000 t … 10000 t + 9999 of the [100000, 64] result. Entry (p, q) of a
  product is the sum over k of left (p, k) times right (k, q): it reads row p of the left factor and nothing else of it,
  so the product of a block of rows is that block of rows of the whole product. The ten blocks tile the result's rows
  (the block holding row r is r / 10000), hence the array the region leaves is the whole product, entry by entry. At the
  ideal values the conversion to the narrower format before the product is the identity. The body first recasts the loaded block to
  its own shape, which changes nothing.
-/
import proofs.«158434_j22625887715477_1_alg».proof.Proof.Gen.KernelIdeal.Frame
import proofs.«158434_j22625887715477_1_alg».proof.Proof.Spec
import proofs.«158434_j22625887715477_1_alg».proof.Proof.LibMatmulRows
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets, however spelt. -/
theorem hz2 : (![0, 0] : Fin 2 → Nat) = fun _ => 0 := funext fun a => by fin_cases a <;> rfl

/-- The body's payload at entry (r, q): row r of the loaded block of the left matrix against column q of the weights. -/
theorem pay2_apply (x0 : Vec Ideal S10000x128 .f32) (x1 : Vec Ideal S128x64 .f32) (r : Fin 10000) (q : Fin 64) :
    k2_pay1 (F := Ideal) x0 x1 (ix2 r q) = ∑ k : Fin 128, x0 (ix2 r k) * x1 (ix2 k q) := by
  unfold k2_pay1
  rw [shapeCast_self]
  exact Cert.Bridge.matmul_plain_zero_apply 10000 128 64 none (truncf .bf16 x0 bitsLt_bf16_f32) (truncf .bf16 x1 bitsLt_bf16_f32) r q

/-- The whole product at entry (p, q). -/
theorem mm3_apply (x : (⟨Cert.ReferenceIdeal.S100000x128, .f32⟩ : BufTy).Contents (Elt Ideal)) (w : (⟨Cert.ReferenceIdeal.S128x64, .f32⟩ : BufTy).Contents (Elt Ideal))
    (p : Fin 100000) (q : Fin 64) :
    Cert.ReferenceIdeal.Spec.mm3 (F := Ideal) x w (ix2 p q) = ∑ k : Fin 128, x (ix2 p k) * w (ix2 k q) :=
  Cert.Bridge.dotGeneral_plain_apply 100000 128 64 none .single x w p q

/-- The printed index maps, decided over the ten row blocks: the left matrix's block moves with the result's along the
    rows and sits at column block 0, the weights' block is always the whole matrix, the result's block sits at column
    block 0 and its row block is at most 9. -/
theorem idx_facts2 : ∀ t : Fin cfg2.N, win2_0.index t (0 : Fin 2) = win2_2.index t (0 : Fin 2)
    ∧ win2_0.index t (1 : Fin 2) = 0
    ∧ win2_1.index t (0 : Fin 2) = 0 ∧ win2_1.index t (1 : Fin 2) = 0
    ∧ win2_2.index t (1 : Fin 2) = 0
    ∧ win2_2.index t (0 : Fin 2) ≤ 9 :=
  (by decide +kernel : ∀ t : Fin grid2.N, _)

/-- Every one of the ten row blocks of the result is some point's. -/
theorem idx_onto2 : ∀ q : Fin 10, ∃ t : Fin cfg2.N, win2_2.index t (0 : Fin 2) = q.val :=
  (by decide +kernel : ∀ q : Fin 10, ∃ t : Fin grid2.N, win2_2.index t (0 : Fin 2) = q.val)

/-- The payload at any index of the block, and the whole product at any index of the array. -/
theorem pay2_at (x0 : Vec Ideal S10000x128 .f32) (x1 : Vec Ideal S128x64 .f32) (j : S10000x64.Idx) :
    k2_pay1 (F := Ideal) x0 x1 j = ∑ k : Fin 128, x0 (ix2 (j 0) k) * x1 (ix2 k (j 1)) :=
  (congrArg (k2_pay1 (F := Ideal) x0 x1) (eq_ix2 j)).trans (pay2_apply x0 x1 (j 0) (j 1))

theorem mm3_at (x : (⟨Cert.ReferenceIdeal.S100000x128, .f32⟩ : BufTy).Contents (Elt Ideal)) (w : (⟨Cert.ReferenceIdeal.S128x64, .f32⟩ : BufTy).Contents (Elt Ideal))
    (i : S100000x64.Idx) :
    Cert.ReferenceIdeal.Spec.mm3 (F := Ideal) x w i = ∑ k : Fin 128, x (ix2 (i 0) k) * w (ix2 k (i 1)) :=
  (congrArg (Cert.ReferenceIdeal.Spec.mm3 (F := Ideal) x w) (eq_ix2 i)).trans (mm3_apply x w (i 0) (i 1))

variable (V : (c : Dev nD) → (b : Ref sig .tc) → Buf (Elt Ideal) ((c : Thread nD τ).loc b))

/-- What row block t writes back is rows 10000 t … 10000 t + 9999 of the whole product of the arrays the region finds. -/
theorem flushed2_eq (c : Dev nD) (t : Fin cfg2.N) :
    (dat2 (F := Ideal) V c).flushed 2 t
      = ((cfg2.win 2).blk t).view.read (Elt Ideal) (Cert.ReferenceIdeal.Spec.mm3 (F := Ideal) (V c main_v65) (V c main_arg6)) := by
  show (cfg2.win 2).cut (grid2.coords t) ((dat2 V c).after 2 t) = _
  rw [after2_2]
  unfold out2_2
  rw [View.canon_unit_zero hz2]
  simp only [View.ld_unit_zero (S := S10000x128) hz2, View.ld_unit_zero (S := S128x64) hz2]
  obtain ⟨e0, e1, e2, e3, e4, e5⟩ := idx_facts2 t
  funext j
  refine (pay2_at (iblk2 V c 0 t) (iblk2 V c 1 t) j).trans ?_
  refine Eq.trans ?_ (mm3_at (V c main_v65) (V c main_arg6) (((cfg2.win 2).blk t).view.emb j)).symm
  refine Finset.sum_congr rfl fun k _ => ?_
  have h0 : ((cfg2.win 0).blk t).view.emb (ix2 (j 0) k)
      = ix2 (n0 := 100000) (n1 := 128) ((((cfg2.win 2).blk t).view.emb j) 0) k := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * k.val = k.val; omega
  have h1 : ((cfg2.win 1).blk t).view.emb (ix2 k (j 1))
      = ix2 (n0 := 128) (n1 := 64) k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact congrArg₂ (· * ·) (congrArg (V c main_v65) h0) (congrArg (V c main_arg6) h1)

/-- An index of the result array is in row block t's rectangle iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v66).slice (win2_2.rect t)).set ↔ _
  rw [View.set_slice_whole, Rect.mem_set_unit]
  exact Iff.rfl

/-- Every index of the result array is in some row block's rectangle: row r is in block r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have ht' : win2_2.index t (0 : Fin 2) = (i 0).val / 10000 := ht
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The array the region leaves is the whole product of the left and weight arrays it finds. -/
theorem region2 (c : Dev nD) :
    (Gen.dat2 (F := Ideal) V c).arrAt 2 cfg2.N = Cert.ReferenceIdeal.Spec.mm3 (F := Ideal) (V c main_v65) (V c main_arg6) :=
  (dat2 V c).arrAt_eq_of_cover 2 _ (fun t _ => flushed2_eq V c t) (fun i => cover2 i)

end Cert.KernelIdeal.Bridge

end
-- ==== Proof.Region3.lean ====
/-
  What the fourth matrix-product region leaves in its output array.

  The region multiplies the [100000, 64] matrix of hidden features by the [64, 64] weight matrix ten thousand rows at a time: at
  row block t the body loads rows 10000 t … 10000 t + 9999 of the left matrix and the whole weight matrix, and stores
  their product, accumulated into zero, as rows 10000 t … 10000 t + 9999 of the [100000, 64] result. Entry (p, q) of a
  product is the sum over k of left (p, k) times right (k, q): it reads row p of the left factor and nothing else of it,
  so the product of a block of rows is that block of rows of the whole product. The ten blocks tile the result's rows
  (the block holding row r is r / 10000), hence the array the region leaves is the whole product, entry by entry. At the
  ideal values the conversion to the narrower format before the product is the identity. The body first recasts the loaded block to
  its own shape, which changes nothing.
-/
import proofs.«158434_j22625887715477_1_alg».proof.Proof.Gen.KernelIdeal.Frame
import proofs.«158434_j22625887715477_1_alg».proof.Proof.Spec
import proofs.«158434_j22625887715477_1_alg».proof.Proof.LibMatmulRows
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets, however spelt. -/
theorem hz3 : (![0, 0] : Fin 2 → Nat) = fun _ => 0 := funext fun a => by fin_cases a <;> rfl

/-- The body's payload at entry (r, q): row r of the loaded block of the left matrix against column q of the weights. -/
theorem pay3_apply (x0 : Vec Ideal S10000x64 .f32) (x1 : Vec Ideal S64x64 .f32) (r : Fin 10000) (q : Fin 64) :
    k3_pay1 (F := Ideal) x0 x1 (ix2 r q) = ∑ k : Fin 64, x0 (ix2 r k) * x1 (ix2 k q) := by
  unfold k3_pay1
  rw [shapeCast_self]
  exact Cert.Bridge.matmul_plain_zero_apply 10000 64 64 none (truncf .bf16 x0 bitsLt_bf16_f32) (truncf .bf16 x1 bitsLt_bf16_f32) r q

/-- The whole product at entry (p, q). -/
theorem mm4_apply (x : (⟨Cert.ReferenceIdeal.S100000x64, .f32⟩ : BufTy).Contents (Elt Ideal)) (w : (⟨Cert.ReferenceIdeal.S64x64, .f32⟩ : BufTy).Contents (Elt Ideal))
    (p : Fin 100000) (q : Fin 64) :
    Cert.ReferenceIdeal.Spec.mm4 (F := Ideal) x w (ix2 p q) = ∑ k : Fin 64, x (ix2 p k) * w (ix2 k q) :=
  Cert.Bridge.dotGeneral_plain_apply 100000 64 64 none .single x w p q

/-- The printed index maps, decided over the ten row blocks: the left matrix's block moves with the result's along the
    rows and sits at column block 0, the weights' block is always the whole matrix, the result's block sits at column
    block 0 and its row block is at most 9. -/
theorem idx_facts3 : ∀ t : Fin cfg3.N, win3_0.index t (0 : Fin 2) = win3_2.index t (0 : Fin 2)
    ∧ win3_0.index t (1 : Fin 2) = 0
    ∧ win3_1.index t (0 : Fin 2) = 0 ∧ win3_1.index t (1 : Fin 2) = 0
    ∧ win3_2.index t (1 : Fin 2) = 0
    ∧ win3_2.index t (0 : Fin 2) ≤ 9 :=
  (by decide +kernel : ∀ t : Fin grid3.N, _)

/-- Every one of the ten row blocks of the result is some point's. -/
theorem idx_onto3 : ∀ q : Fin 10, ∃ t : Fin cfg3.N, win3_2.index t (0 : Fin 2) = q.val :=
  (by decide +kernel : ∀ q : Fin 10, ∃ t : Fin grid3.N, win3_2.index t (0 : Fin 2) = q.val)

/-- The payload at any index of the block, and the whole product at any index of the array. -/
theorem pay3_at (x0 : Vec Ideal S10000x64 .f32) (x1 : Vec Ideal S64x64 .f32) (j : S10000x64.Idx) :
    k3_pay1 (F := Ideal) x0 x1 j = ∑ k : Fin 64, x0 (ix2 (j 0) k) * x1 (ix2 k (j 1)) :=
  (congrArg (k3_pay1 (F := Ideal) x0 x1) (eq_ix2 j)).trans (pay3_apply x0 x1 (j 0) (j 1))

theorem mm4_at (x : (⟨Cert.ReferenceIdeal.S100000x64, .f32⟩ : BufTy).Contents (Elt Ideal)) (w : (⟨Cert.ReferenceIdeal.S64x64, .f32⟩ : BufTy).Contents (Elt Ideal))
    (i : S100000x64.Idx) :
    Cert.ReferenceIdeal.Spec.mm4 (F := Ideal) x w i = ∑ k : Fin 64, x (ix2 (i 0) k) * w (ix2 k (i 1)) :=
  (congrArg (Cert.ReferenceIdeal.Spec.mm4 (F := Ideal) x w) (eq_ix2 i)).trans (mm4_apply x w (i 0) (i 1))

variable (V : (c : Dev nD) → (b : Ref sig .tc) → Buf (Elt Ideal) ((c : Thread nD τ).loc b))

/-- What row block t writes back is rows 10000 t … 10000 t + 9999 of the whole product of the arrays the region finds. -/
theorem flushed3_eq (c : Dev nD) (t : Fin cfg3.N) :
    (dat3 (F := Ideal) V c).flushed 2 t
      = ((cfg3.win 2).blk t).view.read (Elt Ideal) (Cert.ReferenceIdeal.Spec.mm4 (F := Ideal) (V c main_v82) (V c main_arg8)) := by
  show (cfg3.win 2).cut (grid3.coords t) ((dat3 V c).after 2 t) = _
  rw [after3_2]
  unfold out3_2
  rw [View.canon_unit_zero hz3]
  simp only [View.ld_unit_zero (S := S10000x64) hz3, View.ld_unit_zero (S := S64x64) hz3]
  obtain ⟨e0, e1, e2, e3, e4, e5⟩ := idx_facts3 t
  funext j
  refine (pay3_at (iblk3 V c 0 t) (iblk3 V c 1 t) j).trans ?_
  refine Eq.trans ?_ (mm4_at (V c main_v82) (V c main_arg8) (((cfg3.win 2).blk t).view.emb j)).symm
  refine Finset.sum_congr rfl fun k _ => ?_
  have h0 : ((cfg3.win 0).blk t).view.emb (ix2 (j 0) k)
      = ix2 (n0 := 100000) (n1 := 64) ((((cfg3.win 2).blk t).view.emb j) 0) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have h1 : ((cfg3.win 1).blk t).view.emb (ix2 k (j 1))
      = ix2 (n0 := 64) (n1 := 64) k ((((cfg3.win 2).blk t).view.emb j) 1) := by
    funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  exact congrArg₂ (· * ·) (congrArg (V c main_v82) h0) (congrArg (V c main_arg8) h1)

/-- An index of the result array is in row block t's rectangle iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v83).slice (win3_2.rect t)).set ↔ _
  rw [View.set_slice_whole, Rect.mem_set_unit]
  exact Iff.rfl

/-- Every index of the result array is in some row block's rectangle: row r is in block r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have ht' : win3_2.index t (0 : Fin 2) = (i 0).val / 10000 := ht
  obtain ⟨e0, e1, e2, e3, e4, e5⟩ := idx_facts3 t
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The array the region leaves is the whole product of the left and weight arrays it finds. -/
theorem region3 (c : Dev nD) :
    (Gen.dat3 (F := Ideal) V c).arrAt 2 cfg3.N = Cert.ReferenceIdeal.Spec.mm4 (F := Ideal) (V c main_v82) (V c main_arg8) :=
  (dat3 V c).arrAt_eq_of_cover 2 _ (fun t _ => flushed3_eq V c t) (fun i => cover3 i)

end Cert.KernelIdeal.Bridge

end
-- ==== Proof.Region4.lean ====
/-
  What the fifth matrix-product region leaves in its output array.

  The region multiplies the [100000, 64] matrix of hidden features by the [64, 1] weight matrix ten thousand rows at a time: at
  row block t the body loads rows 10000 t … 10000 t + 9999 of the left matrix and the whole weight matrix, and stores
  their product, accumulated into zero, as rows 10000 t … 10000 t + 9999 of the [100000, 1] result. Entry (p, q) of a
  product is the sum over k of left (p, k) times right (k, q): it reads row p of the left factor and nothing else of it,
  so the product of a block of rows is that block of rows of the whole product. The ten blocks tile the result's rows
  (the block holding row r is r / 10000), hence the array the region leaves is the whole product, entry by entry. At the
  ideal values the conversion to the narrower format before the product is the identity. The body first recasts the loaded block to
  its own shape, which changes nothing.
-/
import proofs.«158434_j22625887715477_1_alg».proof.Proof.Gen.KernelIdeal.Frame
import proofs.«158434_j22625887715477_1_alg».proof.Proof.Spec
import proofs.«158434_j22625887715477_1_alg».proof.Proof.LibMatmulRows
import Idealize.ShloMosaic.Lib.ValueIdx
import Idealize.ShloMosaic.Lib.Pipeline.Value
import Idealize.ShloMosaic.PureOps.Ideal.Laws

noncomputable section

namespace Cert.KernelIdeal.Bridge

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

/-- The zero offsets, however spelt. -/
theorem hz4 : (![0, 0] : Fin 2 → Nat) = fun _ => 0 := funext fun a => by fin_cases a <;> rfl

/-- The body's payload at entry (r, q): row r of the loaded block of the left matrix against column q of the weights. -/
theorem pay4_apply (x0 : Vec Ideal S10000x64 .f32) (x1 : Vec Ideal S64x1 .f32) (r : Fin 10000) (q : Fin 1) :
    k4_pay1 (F := Ideal) x0 x1 (ix2 r q) = ∑ k : Fin 64, x0 (ix2 r k) * x1 (ix2 k q) := by
  unfold k4_pay1
  rw [shapeCast_self]
  exact Cert.Bridge.matmul_plain_zero_apply 10000 64 1 none (truncf .bf16 x0 bitsLt_bf16_f32) (truncf .bf16 x1 bitsLt_bf16_f32) r q

/-- The whole product at entry (p, q). -/
theorem mm5_apply (x : (⟨Cert.ReferenceIdeal.S100000x64, .f32⟩ : BufTy).Contents (Elt Ideal)) (w : (⟨Cert.ReferenceIdeal.S64x1, .f32⟩ : BufTy).Contents (Elt Ideal))
    (p : Fin 100000) (q : Fin 1) :
    Cert.ReferenceIdeal.Spec.mm5 (F := Ideal) x w (ix2 p q) = ∑ k : Fin 64, x (ix2 p k) * w (ix2 k q) :=
  Cert.Bridge.dotGeneral_plain_apply 100000 64 1 none .single x w p q

/-- The printed index maps, decided over the ten row blocks: the left matrix's block moves with the result's along the
    rows and sits at column block 0, the weights' block is always the whole matrix, the result's block sits at column
    block 0 and its row block is at most 9. -/
theorem idx_facts4 : ∀ t : Fin cfg4.N, win4_0.index t (0 : Fin 2) = win4_2.index t (0 : Fin 2)
    ∧ win4_0.index t (1 : Fin 2) = 0
    ∧ win4_1.index t (0 : Fin 2) = 0 ∧ win4_1.index t (1 : Fin 2) = 0
    ∧ win4_2.index t (1 : Fin 2) = 0
    ∧ win4_2.index t (0 : Fin 2) ≤ 9 :=
  (by decide +kernel : ∀ t : Fin grid4.N, _)

/-- Every one of the ten row blocks of the result is some point's. -/
theorem idx_onto4 : ∀ q : Fin 10, ∃ t : Fin cfg4.N, win4_2.index t (0 : Fin 2) = q.val :=
  (by decide +kernel : ∀ q : Fin 10, ∃ t : Fin grid4.N, win4_2.index t (0 : Fin 2) = q.val)

/-- The payload at any index of the block, and the whole product at any index of the array. -/
theorem pay4_at (x0 : Vec Ideal S10000x64 .f32) (x1 : Vec Ideal S64x1 .f32) (j : S10000x1.Idx) :
    k4_pay1 (F := Ideal) x0 x1 j = ∑ k : Fin 64, x0 (ix2 (j 0) k) * x1 (ix2 k (j 1)) :=
  (congrArg (k4_pay1 (F := Ideal) x0 x1) (eq_ix2 j)).trans (pay4_apply x0 x1 (j 0) (j 1))

theorem mm5_at (x : (⟨Cert.ReferenceIdeal.S100000x64, .f32⟩ : BufTy).Contents (Elt Ideal)) (w : (⟨Cert.ReferenceIdeal.S64x1, .f32⟩ : BufTy).Contents (Elt Ideal))
    (i : S100000x1.Idx) :
    Cert.ReferenceIdeal.Spec.mm5 (F := Ideal) x w i = ∑ k : Fin 64, x (ix2 (i 0) k) * w (ix2 k (i 1)) :=
  (congrArg (Cert.ReferenceIdeal.Spec.mm5 (F := Ideal) x w) (eq_ix2 i)).trans (mm5_apply x w (i 0) (i 1))

variable (V : (c : Dev nD) → (b : Ref sig .tc) → Buf (Elt Ideal) ((c : Thread nD τ).loc b))

/-- What row block t writes back is rows 10000 t … 10000 t + 9999 of the whole product of the arrays the region finds. -/
theorem flushed4_eq (c : Dev nD) (t : Fin cfg4.N) :
    (dat4 (F := Ideal) V c).flushed 2 t
      = ((cfg4.win 2).blk t).view.read (Elt Ideal) (Cert.ReferenceIdeal.Spec.mm5 (F := Ideal) (V c main_v99) (V c main_arg10)) := by
  show (cfg4.win 2).cut (grid4.coords t) ((dat4 V c).after 2 t) = _
  rw [after4_2]
  unfold out4_2
  rw [View.canon_unit_zero hz4]
  simp only [View.ld_unit_zero (S := S10000x64) hz4, View.ld_unit_zero (S := S64x1) hz4]
  obtain ⟨e0, e1, e2, e3, e4, e5⟩ := idx_facts4 t
  funext j
  refine (pay4_at (iblk4 V c 0 t) (iblk4 V c 1 t) j).trans ?_
  refine Eq.trans ?_ (mm5_at (V c main_v99) (V c main_arg10) (((cfg4.win 2).blk t).view.emb j)).symm
  refine Finset.sum_congr rfl fun k _ => ?_
  have h0 : ((cfg4.win 0).blk t).view.emb (ix2 (j 0) k)
      = ix2 (n0 := 100000) (n1 := 64) ((((cfg4.win 2).blk t).view.emb j) 0) k := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  have h1 : ((cfg4.win 1).blk t).view.emb (ix2 k (j 1))
      = ix2 (n0 := 64) (n1 := 1) k ((((cfg4.win 2).blk t).view.emb j) 1) := by
    funext a; apply Fin.ext
    match a with
    | ⟨0, _⟩ => show win4_1.index t (0 : Fin 2) * 64 + 1 * k.val = k.val; omega
    | ⟨1, _⟩ => show win4_1.index t (1 : Fin 2) * 1 + 1 * (j 1).val = win4_2.index t (1 : Fin 2) * 1 + 1 * (j 1).val; omega
  exact congrArg₂ (· * ·) (congrArg (V c main_v99) h0) (congrArg (V c main_arg10) h1)

/-- An index of the result array is in row block t's rectangle iff each coordinate is in the block's range on its axis. -/
theorem mem_blk4 (t : Fin cfg4.N) (i : S100000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v100).slice (win4_2.rect t)).set ↔ _
  rw [View.set_slice_whole, Rect.mem_set_unit]
  exact Iff.rfl

/-- Every index of the result array is in some row block's rectangle: row r is in block r / 10000. -/
theorem cover4 (i : S100000x1.Idx) :
    ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := idx_onto4 ⟨(i 0).val / 10000, by omega⟩
  have ht' : win4_2.index t (0 : Fin 2) = (i 0).val / 10000 := ht
  obtain ⟨e0, e1, e2, e3, e4, e5⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 1 ≤ (i 1).val ∧ (i 1).val < win4_2.index t (1 : Fin 2) * 1 + 1; omega

/-- The array the region leaves is the whole product of the left and weight arrays it finds. -/
theorem region4 (c : Dev nD) :
    (Gen.dat4 (F := Ideal) V c).arrAt 2 cfg4.N = Cert.ReferenceIdeal.Spec.mm5 (F := Ideal) (V c main_v99) (V c main_arg10) :=
  (dat4 V c).arrAt_eq_of_cover 2 _ (fun t _ => flushed4_eq V c t) (fun i => cover4 i)

end Cert.KernelIdeal.Bridge

end
-- ==== Proof.Chain.lean ====
/-
  The idealized kernel program's result, read through the run's fold.

  The fold of the run carries every buffer's contents from the launch through the host operations and the five pallas_calls
  in program order. Read backwards from the result buffer: the last stretch of host operations aggregates the fifth matrix
  product over the edges and adds the bias; the fifth pallas_call's output array is the matrix product of the fourth hidden
  layer with the fifth weight matrix; and so on down to the first product, of the input features with the first weight
  matrix. What each step reads besides the previous step's result — the edge arrays and the edge weights, computed once
  before the first call, and the bias and weight arguments — is written by nothing in between, so it is read through the
  fold back to where it was computed, or to the launch. The composition is the network `Spec.out` of the argument arrays.
-/
import proofs.«158434_j22625887715477_1_alg».proof.Proof.Gen.KernelIdeal.Frame
import proofs.«158434_j22625887715477_1_alg».proof.Proof.Spec
import proofs.«158434_j22625887715477_1_alg».proof.Proof.Keep
import proofs.«158434_j22625887715477_1_alg».proof.Proof.HostPre
import proofs.«158434_j22625887715477_1_alg».proof.Proof.HostStage1
import proofs.«158434_j22625887715477_1_alg».proof.Proof.HostStage2
import proofs.«158434_j22625887715477_1_alg».proof.Proof.HostStage3
import proofs.«158434_j22625887715477_1_alg».proof.Proof.HostStage4
import proofs.«158434_j22625887715477_1_alg».proof.Proof.HostTail
import proofs.«158434_j22625887715477_1_alg».proof.Proof.Region0
import proofs.«158434_j22625887715477_1_alg».proof.Proof.Region1
import proofs.«158434_j22625887715477_1_alg».proof.Proof.Region2
import proofs.«158434_j22625887715477_1_alg».proof.Proof.Region3
import proofs.«158434_j22625887715477_1_alg».proof.Proof.Region4
import Idealize.ShloMosaic.Lib.StableHlo.Run
import Idealize.ShloMosaic.PureOps.Ideal

set_option maxRecDepth 16384

noncomputable section

namespace Cert.KernelIdeal.Bridge

open Cert.KernelIdeal Cert.KernelIdeal.Gen Idealize.ShloMosaic Idealize.ShloMosaic.TcCoe Idealize.SL.Sem

/-! ## Arguments read through the fold: no host operation writes an argument, and before a pallas_call reads one as an
    input array no earlier call's arrays contain it -/
theorem arg0_at3 (m : (ℓ : Loc nD τ sig) → Buf (Elt Ideal) ℓ) (ρ : Dev nD → PrngReg) (c : Dev nD) : W3 m ρ c (Proc.devRef .tc main_arg0) = m ((c : Thread nD τ).loc main_arg0) :=
  (keep0_2 (W2 m ρ c) main_arg0 (by decide)).trans ((keep0_1 (W1 m ρ c) main_arg0 (by decide)).trans ((keep0 (W0 m ρ c) main_arg0 (by decide)).trans (rfl)))
theorem arg2_at3 (m : (ℓ : Loc nD τ sig) → Buf (Elt Ideal) ℓ) (ρ : Dev nD → PrngReg) (c : Dev nD) : W3 m ρ c (Proc.devRef .tc main_arg2) = m ((c : Thread nD τ).loc main_arg2) :=
  (keep0_2 (W2 m ρ c) main_arg2 (by decide)).trans ((keep0_1 (W1 m ρ c) main_arg2 (by decide)).trans ((keep0 (W0 m ρ c) main_arg2 (by decide)).trans (rfl)))
theorem arg3_at4 (m : (ℓ : Loc nD τ sig) → Buf (Elt Ideal) ℓ) (ρ : Dev nD → PrngReg) (c : Dev nD) : W4 m ρ c (Proc.devRef .tc main_arg3) = m ((c : Thread nD τ).loc main_arg3) :=
  (W4_of_ne m ρ c main_arg3 (by decide)).trans ((keep0_2 (W2 m ρ c) main_arg3 (by decide)).trans ((keep0_1 (W1 m ρ c) main_arg3 (by decide)).trans ((keep0 (W0 m ρ c) main_arg3 (by decide)).trans (rfl))))
theorem arg4_at6 (m : (ℓ : Loc nD τ sig) → Buf (Elt Ideal) ℓ) (ρ : Dev nD → PrngReg) (c : Dev nD) : W6 m ρ c (Proc.devRef .tc main_arg4) = m ((c : Thread nD τ).loc main_arg4) :=
  (keep1_1 (W5 m ρ c) main_arg4 (by decide)).trans ((keep1 (W4 m ρ c) main_arg4 (by decide)).trans ((W4_of_ne m ρ c main_arg4 (by decide)).trans ((keep0_2 (W2 m ρ c) main_arg4 (by decide)).trans ((keep0_1 (W1 m ρ c) main_arg4 (by decide)).trans ((keep0 (W0 m ρ c) main_arg4 (by decide)).trans (rfl))))))
theorem arg5_at7 (m : (ℓ : Loc nD τ sig) → Buf (Elt Ideal) ℓ) (ρ : Dev nD → PrngReg) (c : Dev nD) : W7 m ρ c (Proc.devRef .tc main_arg5) = m ((c : Thread nD τ).loc main_arg5) :=
  (W7_of_ne m ρ c main_arg5 (by decide)).trans ((keep1_1 (W5 m ρ c) main_arg5 (by decide)).trans ((keep1 (W4 m ρ c) main_arg5 (by decide)).trans ((W4_of_ne m ρ c main_arg5 (by decide)).trans ((keep0_2 (W2 m ρ c) main_arg5 (by decide)).trans ((keep0_1 (W1 m ρ c) main_arg5 (by decide)).trans ((keep0 (W0 m ρ c) main_arg5 (by decide)).trans (rfl)))))))
theorem arg6_at9 (m : (ℓ : Loc nD τ sig) → Buf (Elt Ideal) ℓ) (ρ : Dev nD → PrngReg) (c : Dev nD) : W9 m ρ c (Proc.devRef .tc main_arg6) = m ((c : Thread nD τ).loc main_arg6) :=
  (keep2_1 (W8 m ρ c) main_arg6 (by decide)).trans ((keep2 (W7 m ρ c) main_arg6 (by decide)).trans ((W7_of_ne m ρ c main_arg6 (by decide)).trans ((keep1_1 (W5 m ρ c) main_arg6 (by decide)).trans ((keep1 (W4 m ρ c) main_arg6 (by decide)).trans ((W4_of_ne m ρ c main_arg6 (by decide)).trans ((keep0_2 (W2 m ρ c) main_arg6 (by decide)).trans ((keep0_1 (W1 m ρ c) main_arg6 (by decide)).trans ((keep0 (W0 m ρ c) main_arg6 (by decide)).trans (rfl)))))))))
theorem arg7_at10 (m : (ℓ : Loc nD τ sig) → Buf (Elt Ideal) ℓ) (ρ : Dev nD → PrngReg) (c : Dev nD) : W10 m ρ c (Proc.devRef .tc main_arg7) = m ((c : Thread nD τ).loc main_arg7) :=
  (W10_of_ne m ρ c main_arg7 (by decide)).trans ((keep2_1 (W8 m ρ c) main_arg7 (by decide)).trans ((keep2 (W7 m ρ c) main_arg7 (by decide)).trans ((W7_of_ne m ρ c main_arg7 (by decide)).trans ((keep1_1 (W5 m ρ c) main_arg7 (by decide)).trans ((keep1 (W4 m ρ c) main_arg7 (by decide)).trans ((W4_of_ne m ρ c main_arg7 (by decide)).trans ((keep0_2 (W2 m ρ c) main_arg7 (by decide)).trans ((keep0_1 (W1 m ρ c) main_arg7 (by decide)).trans ((keep0 (W0 m ρ c) main_arg7 (by decide)).trans (rfl))))))))))
theorem arg8_at12 (m : (ℓ : Loc nD τ sig) → Buf (Elt Ideal) ℓ) (ρ : Dev nD → PrngReg) (c : Dev nD) : W12 m ρ c (Proc.devRef .tc main_arg8) = m ((c : Thread nD τ).loc main_arg8) :=
  (keep3_1 (W11 m ρ c) main_arg8 (by decide)).trans ((keep3 (W10 m ρ c) main_arg8 (by decide)).trans ((W10_of_ne m ρ c main_arg8 (by decide)).trans ((keep2_1 (W8 m ρ c) main_arg8 (by decide)).trans ((keep2 (W7 m ρ c) main_arg8 (by decide)).trans ((W7_of_ne m ρ c main_arg8 (by decide)).trans ((keep1_1 (W5 m ρ c) main_arg8 (by decide)).trans ((keep1 (W4 m ρ c) main_arg8 (by decide)).trans ((W4_of_ne m ρ c main_arg8 (by decide)).trans ((keep0_2 (W2 m ρ c) main_arg8 (by decide)).trans ((keep0_1 (W1 m ρ c) main_arg8 (by decide)).trans ((keep0 (W0 m ρ c) main_arg8 (by decide)).trans (rfl))))))))))))
theorem arg9_at13 (m : (ℓ : Loc nD τ sig) → Buf (Elt Ideal) ℓ) (ρ : Dev nD → PrngReg) (c : Dev nD) : W13 m ρ c (Proc.devRef .tc main_arg9) = m ((c : Thread nD τ).loc main_arg9) :=
  (W13_of_ne m ρ c main_arg9 (by decide)).trans ((keep3_1 (W11 m ρ c) main_arg9 (by decide)).trans ((keep3 (W10 m ρ c) main_arg9 (by decide)).trans ((W10_of_ne m ρ c main_arg9 (by decide)).trans ((keep2_1 (W8 m ρ c) main_arg9 (by decide)).trans ((keep2 (W7 m ρ c) main_arg9 (by decide)).trans ((W7_of_ne m ρ c main_arg9 (by decide)).trans ((keep1_1 (W5 m ρ c) main_arg9 (by decide)).trans ((keep1 (W4 m ρ c) main_arg9 (by decide)).trans ((W4_of_ne m ρ c main_arg9 (by decide)).trans ((keep0_2 (W2 m ρ c) main_arg9 (by decide)).trans ((keep0_1 (W1 m ρ c) main_arg9 (by decide)).trans ((keep0 (W0 m ρ c) main_arg9 (by decide)).trans (rfl)))))))))))))
theorem arg10_at15 (m : (ℓ : Loc nD τ sig) → Buf (Elt Ideal) ℓ) (ρ : Dev nD → PrngReg) (c : Dev nD) : W15 m ρ c (Proc.devRef .tc main_arg10) = m ((c : Thread nD τ).loc main_arg10) :=
  (keep4_1 (W14 m ρ c) main_arg10 (by decide)).trans ((keep4 (W13 m ρ c) main_arg10 (by decide)).trans ((W13_of_ne m ρ c main_arg10 (by decide)).trans ((keep3_1 (W11 m ρ c) main_arg10 (by decide)).trans ((keep3 (W10 m ρ c) main_arg10 (by decide)).trans ((W10_of_ne m ρ c main_arg10 (by decide)).trans ((keep2_1 (W8 m ρ c) main_arg10 (by decide)).trans ((keep2 (W7 m ρ c) main_arg10 (by decide)).trans ((W7_of_ne m ρ c main_arg10 (by decide)).trans ((keep1_1 (W5 m ρ c) main_arg10 (by decide)).trans ((keep1 (W4 m ρ c) main_arg10 (by decide)).trans ((W4_of_ne m ρ c main_arg10 (by decide)).trans ((keep0_2 (W2 m ρ c) main_arg10 (by decide)).trans ((keep0_1 (W1 m ρ c) main_arg10 (by decide)).trans ((keep0 (W0 m ρ c) main_arg10 (by decide)).trans (rfl)))))))))))))))
theorem arg11_at16 (m : (ℓ : Loc nD τ sig) → Buf (Elt Ideal) ℓ) (ρ : Dev nD → PrngReg) (c : Dev nD) : W16 m ρ c (Proc.devRef .tc main_arg11) = m ((c : Thread nD τ).loc main_arg11) :=
  (W16_of_ne m ρ c main_arg11 (by decide)).trans ((keep4_1 (W14 m ρ c) main_arg11 (by decide)).trans ((keep4 (W13 m ρ c) main_arg11 (by decide)).trans ((W13_of_ne m ρ c main_arg11 (by decide)).trans ((keep3_1 (W11 m ρ c) main_arg11 (by decide)).trans ((keep3 (W10 m ρ c) main_arg11 (by decide)).trans ((W10_of_ne m ρ c main_arg11 (by decide)).trans ((keep2_1 (W8 m ρ c) main_arg11 (by decide)).trans ((keep2 (W7 m ρ c) main_arg11 (by decide)).trans ((W7_of_ne m ρ c main_arg11 (by decide)).trans ((keep1_1 (W5 m ρ c) main_arg11 (by decide)).trans ((keep1 (W4 m ρ c) main_arg11 (by decide)).trans ((W4_of_ne m ρ c main_arg11 (by decide)).trans ((keep0_2 (W2 m ρ c) main_arg11 (by decide)).trans ((keep0_1 (W1 m ρ c) main_arg11 (by decide)).trans ((keep0 (W0 m ρ c) main_arg11 (by decide)).trans (rfl))))))))))))))))

/-! ## The graph arrays: computed by the host operations before the first pallas_call, read by every layer, written by nothing after -/

theorem row_at3 (m : (ℓ : Loc nD τ sig) → Buf (Elt Ideal) ℓ) (ρ : Dev nD → PrngReg) (c : Dev nD) : W3 m ρ c (Proc.devRef .tc main_v3) = Cert.ReferenceIdeal.Spec.row (F := Ideal) (m ((c : Thread nD τ).loc main_arg1)) := pre_row (W0 m ρ c)
theorem col_at3 (m : (ℓ : Loc nD τ sig) → Buf (Elt Ideal) ℓ) (ρ : Dev nD → PrngReg) (c : Dev nD) : W3 m ρ c (Proc.devRef .tc main_v6) = Cert.ReferenceIdeal.Spec.col (F := Ideal) (m ((c : Thread nD τ).loc main_arg1)) := pre_col (W0 m ρ c)
theorem nrm_at3 (m : (ℓ : Loc nD τ sig) → Buf (Elt Ideal) ℓ) (ρ : Dev nD → PrngReg) (c : Dev nD) : W3 m ρ c (Proc.devRef .tc main_v31) = Cert.ReferenceIdeal.Spec.nrm (F := Ideal) (Cert.ReferenceIdeal.Spec.row (m ((c : Thread nD τ).loc main_arg1))) (Cert.ReferenceIdeal.Spec.col (m ((c : Thread nD τ).loc main_arg1))) := pre_nrm (W0 m ρ c)

theorem row_at4 (m : (ℓ : Loc nD τ sig) → Buf (Elt Ideal) ℓ) (ρ : Dev nD → PrngReg) (c : Dev nD) : W4 m ρ c (Proc.devRef .tc main_v3) = Cert.ReferenceIdeal.Spec.row (F := Ideal) (m ((c : Thread nD τ).loc main_arg1)) :=
  (W4_of_ne m ρ c main_v3 (by decide)).trans (row_at3 m ρ c)

theorem col_at4 (m : (ℓ : Loc nD τ sig) → Buf (Elt Ideal) ℓ) (ρ : Dev nD → PrngReg) (c : Dev nD) : W4 m ρ c (Proc.devRef .tc main_v6) = Cert.ReferenceIdeal.Spec.col (F := Ideal) (m ((c : Thread nD τ).loc main_arg1)) :=
  (W4_of_ne m ρ c main_v6 (by decide)).trans (col_at3 m ρ c)

theorem nrm_at4 (m : (ℓ : Loc nD τ sig) → Buf (Elt Ideal) ℓ) (ρ : Dev nD → PrngReg) (c : Dev nD) : W4 m ρ c (Proc.devRef .tc main_v31) = Cert.ReferenceIdeal.Spec.nrm (F := Ideal) (Cert.ReferenceIdeal.Spec.row (m ((c : Thread nD τ).loc main_arg1))) (Cert.ReferenceIdeal.Spec.col (m ((c : Thread nD τ).loc main_arg1))) :=
  (W4_of_ne m ρ c main_v31 (by decide)).trans (nrm_at3 m ρ c)

theorem row_at7 (m : (ℓ : Loc nD τ sig) → Buf (Elt Ideal) ℓ) (ρ : Dev nD → PrngReg) (c : Dev nD) : W7 m ρ c (Proc.devRef .tc main_v3) = Cert.ReferenceIdeal.Spec.row (F := Ideal) (m ((c : Thread nD τ).loc main_arg1)) :=
  (W7_of_ne m ρ c main_v3 (by decide)).trans ((keep1_1 (W5 m ρ c) main_v3 (by decide)).trans ((keep1 (W4 m ρ c) main_v3 (by decide)).trans (row_at4 m ρ c)))

theorem col_at7 (m : (ℓ : Loc nD τ sig) → Buf (Elt Ideal) ℓ) (ρ : Dev nD → PrngReg) (c : Dev nD) : W7 m ρ c (Proc.devRef .tc main_v6) = Cert.ReferenceIdeal.Spec.col (F := Ideal) (m ((c : Thread nD τ).loc main_arg1)) :=
  (W7_of_ne m ρ c main_v6 (by decide)).trans ((keep1_1 (W5 m ρ c) main_v6 (by decide)).trans ((keep1 (W4 m ρ c) main_v6 (by decide)).trans (col_at4 m ρ c)))

theorem nrm_at7 (m : (ℓ : Loc nD τ sig) → Buf (Elt Ideal) ℓ) (ρ : Dev nD → PrngReg) (c : Dev nD) : W7 m ρ c (Proc.devRef .tc main_v31) = Cert.ReferenceIdeal.Spec.nrm (F := Ideal) (Cert.ReferenceIdeal.Spec.row (m ((c : Thread nD τ).loc main_arg1))) (Cert.ReferenceIdeal.Spec.col (m ((c : Thread nD τ).loc main_arg1))) :=
  (W7_of_ne m ρ c main_v31 (by decide)).trans ((keep1_1 (W5 m ρ c) main_v31 (by decide)).trans ((keep1 (W4 m ρ c) main_v31 (by decide)).trans (nrm_at4 m ρ c)))

theorem row_at10 (m : (ℓ : Loc nD τ sig) → Buf (Elt Ideal) ℓ) (ρ : Dev nD → PrngReg) (c : Dev nD) : W10 m ρ c (Proc.devRef .tc main_v3) = Cert.ReferenceIdeal.Spec.row (F := Ideal) (m ((c : Thread nD τ).loc main_arg1)) :=
  (W10_of_ne m ρ c main_v3 (by decide)).trans ((keep2_1 (W8 m ρ c) main_v3 (by decide)).trans ((keep2 (W7 m ρ c) main_v3 (by decide)).trans (row_at7 m ρ c)))

theorem col_at10 (m : (ℓ : Loc nD τ sig) → Buf (Elt Ideal) ℓ) (ρ : Dev nD → PrngReg) (c : Dev nD) : W10 m ρ c (Proc.devRef .tc main_v6) = Cert.ReferenceIdeal.Spec.col (F := Ideal) (m ((c : Thread nD τ).loc main_arg1)) :=
  (W10_of_ne m ρ c main_v6 (by decide)).trans ((keep2_1 (W8 m ρ c) main_v6 (by decide)).trans ((keep2 (W7 m ρ c) main_v6 (by decide)).trans (col_at7 m ρ c)))

theorem nrm_at10 (m : (ℓ : Loc nD τ sig) → Buf (Elt Ideal) ℓ) (ρ : Dev nD → PrngReg) (c : Dev nD) : W10 m ρ c (Proc.devRef .tc main_v31) = Cert.ReferenceIdeal.Spec.nrm (F := Ideal) (Cert.ReferenceIdeal.Spec.row (m ((c : Thread nD τ).loc main_arg1))) (Cert.ReferenceIdeal.Spec.col (m ((c : Thread nD τ).loc main_arg1))) :=
  (W10_of_ne m ρ c main_v31 (by decide)).trans ((keep2_1 (W8 m ρ c) main_v31 (by decide)).trans ((keep2 (W7 m ρ c) main_v31 (by decide)).trans (nrm_at7 m ρ c)))

theorem row_at13 (m : (ℓ : Loc nD τ sig) → Buf (Elt Ideal) ℓ) (ρ : Dev nD → PrngReg) (c : Dev nD) : W13 m ρ c (Proc.devRef .tc main_v3) = Cert.ReferenceIdeal.Spec.row (F := Ideal) (m ((c : Thread nD τ).loc main_arg1)) :=
  (W13_of_ne m ρ c main_v3 (by decide)).trans ((keep3_1 (W11 m ρ c) main_v3 (by decide)).trans ((keep3 (W10 m ρ c) main_v3 (by decide)).trans (row_at10 m ρ c)))

theorem col_at13 (m : (ℓ : Loc nD τ sig) → Buf (Elt Ideal) ℓ) (ρ : Dev nD → PrngReg) (c : Dev nD) : W13 m ρ c (Proc.devRef .tc main_v6) = Cert.ReferenceIdeal.Spec.col (F := Ideal) (m ((c : Thread nD τ).loc main_arg1)) :=
  (W13_of_ne m ρ c main_v6 (by decide)).trans ((keep3_1 (W11 m ρ c) main_v6 (by decide)).trans ((keep3 (W10 m ρ c) main_v6 (by decide)).trans (col_at10 m ρ c)))

theorem nrm_at13 (m : (ℓ : Loc nD τ sig) → Buf (Elt Ideal) ℓ) (ρ : Dev nD → PrngReg) (c : Dev nD) : W13 m ρ c (Proc.devRef .tc main_v31) = Cert.ReferenceIdeal.Spec.nrm (F := Ideal) (Cert.ReferenceIdeal.Spec.row (m ((c : Thread nD τ).loc main_arg1))) (Cert.ReferenceIdeal.Spec.col (m ((c : Thread nD τ).loc main_arg1))) :=
  (W13_of_ne m ρ c main_v31 (by decide)).trans ((keep3_1 (W11 m ρ c) main_v31 (by decide)).trans ((keep3 (W10 m ρ c) main_v31 (by decide)).trans (nrm_at10 m ρ c)))

theorem row_at16 (m : (ℓ : Loc nD τ sig) → Buf (Elt Ideal) ℓ) (ρ : Dev nD → PrngReg) (c : Dev nD) : W16 m ρ c (Proc.devRef .tc main_v3) = Cert.ReferenceIdeal.Spec.row (F := Ideal) (m ((c : Thread nD τ).loc main_arg1)) :=
  (W16_of_ne m ρ c main_v3 (by decide)).trans ((keep4_1 (W14 m ρ c) main_v3 (by decide)).trans ((keep4 (W13 m ρ c) main_v3 (by decide)).trans (row_at13 m ρ c)))

theorem col_at16 (m : (ℓ : Loc nD τ sig) → Buf (Elt Ideal) ℓ) (ρ : Dev nD → PrngReg) (c : Dev nD) : W16 m ρ c (Proc.devRef .tc main_v6) = Cert.ReferenceIdeal.Spec.col (F := Ideal) (m ((c : Thread nD τ).loc main_arg1)) :=
  (W16_of_ne m ρ c main_v6 (by decide)).trans ((keep4_1 (W14 m ρ c) main_v6 (by decide)).trans ((keep4 (W13 m ρ c) main_v6 (by decide)).trans (col_at13 m ρ c)))

theorem nrm_at16 (m : (ℓ : Loc nD τ sig) → Buf (Elt Ideal) ℓ) (ρ : Dev nD → PrngReg) (c : Dev nD) : W16 m ρ c (Proc.devRef .tc main_v31) = Cert.ReferenceIdeal.Spec.nrm (F := Ideal) (Cert.ReferenceIdeal.Spec.row (m ((c : Thread nD τ).loc main_arg1))) (Cert.ReferenceIdeal.Spec.col (m ((c : Thread nD τ).loc main_arg1))) :=
  (W16_of_ne m ρ c main_v31 (by decide)).trans ((keep4_1 (W14 m ρ c) main_v31 (by decide)).trans ((keep4 (W13 m ρ c) main_v31 (by decide)).trans (nrm_at13 m ρ c)))

/-! ## The layers, one after the other: a pallas_call's output array is the matrix product of its two input arrays as the
    call finds them; the host operations after it aggregate over the edges, add the bias and take the positive part -/

theorem prod1 (m : (ℓ : Loc nD τ sig) → Buf (Elt Ideal) ℓ) (ρ : Dev nD → PrngReg) (c : Dev nD) : W4 m ρ c (Proc.devRef .tc main_v32) = Cert.ReferenceIdeal.Spec.mm1 (F := Ideal) (m ((c : Thread nD τ).loc main_arg0)) (m ((c : Thread nD τ).loc main_arg2)) :=
  (W4_arr m ρ c 2).trans ((region0 (V3 m ρ) c).trans (congrArg₂ (Cert.ReferenceIdeal.Spec.mm1 (F := Ideal)) (arg0_at3 m ρ c) (arg2_at3 m ρ c)))

theorem layer1 (m : (ℓ : Loc nD τ sig) → Buf (Elt Ideal) ℓ) (ρ : Dev nD → PrngReg) (c : Dev nD) : W6 m ρ c (Proc.devRef .tc main_v48) = Cert.ReferenceIdeal.Spec.h1 (F := Ideal) (m ((c : Thread nD τ).loc main_arg0)) (m ((c : Thread nD τ).loc main_arg1)) (m ((c : Thread nD τ).loc main_arg2)) (m ((c : Thread nD τ).loc main_arg3)) := by
  refine (stage1 (W4 m ρ c)).trans ?_
  rw [prod1 m ρ c, nrm_at4 m ρ c, col_at4 m ρ c, row_at4 m ρ c, arg3_at4 m ρ c]
  rfl

theorem prod2 (m : (ℓ : Loc nD τ sig) → Buf (Elt Ideal) ℓ) (ρ : Dev nD → PrngReg) (c : Dev nD) : W7 m ρ c (Proc.devRef .tc main_v49) = Cert.ReferenceIdeal.Spec.mm2 (F := Ideal) (Cert.ReferenceIdeal.Spec.h1 (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((region1 (V6 m ρ) c).trans (congrArg₂ (Cert.ReferenceIdeal.Spec.mm2 (F := Ideal)) (layer1 m ρ c) (arg4_at6 m ρ c)))

theorem layer2 (m : (ℓ : Loc nD τ sig) → Buf (Elt Ideal) ℓ) (ρ : Dev nD → PrngReg) (c : Dev nD) : W9 m ρ c (Proc.devRef .tc main_v65) = Cert.ReferenceIdeal.Spec.h2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (stage2 (W7 m ρ c)).trans ?_
  rw [prod2 m ρ c, nrm_at7 m ρ c, col_at7 m ρ c, row_at7 m ρ c, arg5_at7 m ρ c]
  rfl

theorem prod3 (m : (ℓ : Loc nD τ sig) → Buf (Elt Ideal) ℓ) (ρ : Dev nD → PrngReg) (c : Dev nD) : W10 m ρ c (Proc.devRef .tc main_v66) = Cert.ReferenceIdeal.Spec.mm3 (F := Ideal) (Cert.ReferenceIdeal.Spec.h2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) :=
  (W10_arr m ρ c 2).trans ((region2 (V9 m ρ) c).trans (congrArg₂ (Cert.ReferenceIdeal.Spec.mm3 (F := Ideal)) (layer2 m ρ c) (arg6_at9 m ρ c)))

theorem layer3 (m : (ℓ : Loc nD τ sig) → Buf (Elt Ideal) ℓ) (ρ : Dev nD → PrngReg) (c : Dev nD) : W12 m ρ c (Proc.devRef .tc main_v82) = Cert.ReferenceIdeal.Spec.h3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (stage3 (W10 m ρ c)).trans ?_
  rw [prod3 m ρ c, nrm_at10 m ρ c, col_at10 m ρ c, row_at10 m ρ c, arg7_at10 m ρ c]
  rfl

theorem prod4 (m : (ℓ : Loc nD τ sig) → Buf (Elt Ideal) ℓ) (ρ : Dev nD → PrngReg) (c : Dev nD) : W13 m ρ c (Proc.devRef .tc main_v83) = Cert.ReferenceIdeal.Spec.mm4 (F := Ideal) (Cert.ReferenceIdeal.Spec.h3 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8)) :=
  (W13_arr m ρ c 2).trans ((region3 (V12 m ρ) c).trans (congrArg₂ (Cert.ReferenceIdeal.Spec.mm4 (F := Ideal)) (layer3 m ρ c) (arg8_at12 m ρ c)))

theorem layer4 (m : (ℓ : Loc nD τ sig) → Buf (Elt Ideal) ℓ) (ρ : Dev nD → PrngReg) (c : Dev nD) : W15 m ρ c (Proc.devRef .tc main_v99) = Cert.ReferenceIdeal.Spec.h4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (stage4 (W13 m ρ c)).trans ?_
  rw [prod4 m ρ c, nrm_at13 m ρ c, col_at13 m ρ c, row_at13 m ρ c, arg9_at13 m ρ c]
  rfl

theorem prod5 (m : (ℓ : Loc nD τ sig) → Buf (Elt Ideal) ℓ) (ρ : Dev nD → PrngReg) (c : Dev nD) : W16 m ρ c (Proc.devRef .tc main_v100) = Cert.ReferenceIdeal.Spec.mm5 (F := Ideal) (Cert.ReferenceIdeal.Spec.h4 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10)) :=
  (W16_arr m ρ c 2).trans ((region4 (V15 m ρ) c).trans (congrArg₂ (Cert.ReferenceIdeal.Spec.mm5 (F := Ideal)) (layer4 m ρ c) (arg10_at15 m ρ c)))

/-- The result buffer at the end of the fold holds the network's value of the launch contents of the arguments. -/
theorem result_eq (m : (ℓ : Loc nD τ sig) → Buf (Elt Ideal) ℓ) (ρ : Dev nD → PrngReg) (c : Dev nD) : W17 m ρ c (Proc.devRef .tc main_v114) = Cert.ReferenceIdeal.Spec.out (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (tail5 (W16 m ρ c)).trans ?_
  rw [prod5 m ρ c, nrm_at16 m ρ c, col_at16 m ρ c, row_at16 m ρ c, arg11_at16 m ρ c]
  rfl

end Cert.KernelIdeal.Bridge

end
-- ==== Proof.RefIs.lean ====
/-
  The reference's result is the network of the specification.

  The reference's run states its result as one composed term of the argument arrays: every host operation applied to the
  terms of its operands, all the way down. The specification composes the same operations stage by stage (the graph arrays,
  the edge weights, five times product — aggregation — positive part). Unfolding the stages gives the composed term itself.
-/
import proofs.«158434_j22625887715477_1_alg».proof.Proof.RefRunPatched
import proofs.«158434_j22625887715477_1_alg».proof.Proof.Spec

noncomputable section

namespace Cert.ReferenceIdeal.Bridge

open Cert.ReferenceIdeal Cert.ReferenceIdeal.Gen Idealize.ShloMosaic Idealize.ShloMosaic.TcCoe Idealize.SL.Sem

variable {F : FTy → Type} [FloatOps F]

set_option maxRecDepth 8192 in
set_option maxHeartbeats 4000000 in
/-- The run's composed result term is `Spec.out` of the argument arrays. -/
theorem res_eq_out (m : (ℓ : Loc nD τ sig) → Buf (Elt F) ℓ) (c : Dev nD) :
    Cert.ReferenceIdeal.ValueP.res_main_v114 (F := F) m c
      = Cert.ReferenceIdeal.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold Cert.ReferenceIdeal.ValueP.res_main_v114; rfl

end Cert.ReferenceIdeal.Bridge

end
-- ==== Proof.lean ====
/-
  A five-layer graph convolution network, computed two ways, gives one result on the extended reals.

  Both programs build the same graph arrays from the edge list (sources and targets with a self loop per node, the degree of
  every node, the weight of every edge), and apply five layers: multiply the node features by the layer's weight matrix,
  gather each edge's source row, scale it by the edge's weight, add it into the target's row, add the bias, and (all but the
  last layer) take the positive part. The two differ only in the matrix products: the reference takes each product whole,
  the kernel computes it in ten blocks of 10000 rows, each block a product with the operands first narrowed to bfloat16. On
  the extended reals narrowing a float is the identity and entry (p, q) of a product into a zero accumulator is the sum over k
  of left (p, k) · right (k, q), which depends on row p of the left operand only: a product of a block of rows is the block
  of rows of the product, so the blocks tile the whole product. Nothing is rearranged, so no finiteness is used and the
  precondition is never opened.

  Modules: `Spec` (the network as a composition of stages), `KRun` (the kernel program's run, its result named at the
  last boundary of the fold), `Region0`–`Region4` (each pallas_call's output array is the whole product), `HostPre`,
  `HostStage1`–`HostStage4`, `HostTail` (each stretch of host operations is its stage), `Keep` (a buffer a stretch does
  not write keeps its contents), `Chain` (the result buffer through the fold), `RefRunPatched` and `RefIs` (the
  reference's run and its result term as the same composition), `LibMatmulRows` (a plain product read at an entry).
-/
import proofs.«158434_j22625887715477_1_alg».proof.Defs
import proofs.«158434_j22625887715477_1_alg».proof.Proof.Gen.Kernel
import proofs.«158434_j22625887715477_1_alg».proof.Proof.Gen.Kernel.Frame
import proofs.«158434_j22625887715477_1_alg».proof.Proof.Gen.KernelIdeal
import proofs.«158434_j22625887715477_1_alg».proof.Proof.Gen.KernelIdeal.Frame
import proofs.«158434_j22625887715477_1_alg».proof.Proof.Gen.ReferenceIdeal
import proofs.«158434_j22625887715477_1_alg».proof.Proof.Gen.Pre_finite_inputs
import proofs.«158434_j22625887715477_1_alg».proof.Proof.KRun
import proofs.«158434_j22625887715477_1_alg».proof.Proof.Chain
import proofs.«158434_j22625887715477_1_alg».proof.Proof.RefRunPatched
import proofs.«158434_j22625887715477_1_alg».proof.Proof.RefIs
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the network's value of the arguments in
    their result buffer: the kernel program by its fold (`Bridge.result_eq`), the reference by its composed term
    (`Bridge.res_eq_out`). -/
theorem algebraic : Cert.algebraic_KernelIdeal_ReferenceIdeal := by
  intro m ρ m' ρ' _ hagree
  refine ⟨fun c => Cert.ReferenceIdeal.Spec.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Bridge.result_eq m ρ c), (h c).2⟩)
      (Cert.KernelIdeal.Bridge.run_named (F := Ideal) m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8, e9, e10, e11⟩ := hagree c
    rw [(h c).1, Cert.ReferenceIdeal.Bridge.res_eq_out, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
